-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000x64 : Shape := ⟨2, ![6000, 64]⟩
abbrev S4000x64 : Shape := ⟨2, ![4000, 64]⟩
abbrev S10000x10000 : Shape := ⟨2, ![10000, 10000]⟩
abbrev S_ : Shape := ⟨0, ![]⟩

class Facts : Prop where
  bcast_S_S6000x64 : S_.BroadcastsInDim S6000x64 (![] : Fin 0 → Fin S6000x64.rank)
  reducesTo_S6000x64_S_d0_1 : S6000x64.ReducesTo [0, 1] S_
  h_S_ : 0 < S_.numel
  bcast_S_S4000x64 : S_.BroadcastsInDim S4000x64 (![] : Fin 0 → Fin S4000x64.rank)
  reducesTo_S4000x64_S_d0_1 : S4000x64.ReducesTo [0, 1] S_
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S6000x64 .f32) (main_arg1 : FVec F S4000x64 .f32) (main_arg2 : FVec F S10000x10000 .f32) : IVec S_ 1 :=
  let main_v0 : FVec F S6000x64 .f32 := Host.absf main_arg0
  let main_cst : FVec F S_ .f32 := constant S_ .f32 0x7F800000#32
  let main_v1 : FVec F S6000x64 .f32 := broadcastInDim S6000x64 ![] bcast_S_S6000x64 main_cst
  let main_v2 : IVec S6000x64 1 := cmpf .olt main_v0 main_v1
  let main_c : IVec S_ 1 := constantI S_ 1 1#1
  let main_v3 : IVec S_ 1 := (fun x v => Host.reduce IntOp.andi x v reducesTo_S6000x64_S_d0_1 h_S_) main_v2 main_c
  let main_v4 : FVec F S4000x64 .f32 := Host.absf main_arg1
  let main_cst_0 : FVec F S_ .f32 := constant S_ .f32 0x7F800000#32
  let main_v5 : FVec F S4000x64 .f32 := broadcastInDim S4000x64 ![] bcast_S_S4000x64 main_cst_0
  let main_v6 : IVec S4000x64 1 := cmpf .olt main_v4 main_v5
  let main_c_1 : IVec S_ 1 := constantI S_ 1 1#1
  let main_v7 : IVec S_ 1 := (fun x v => Host.reduce IntOp.andi x v reducesTo_S4000x64_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S6000x64 : Shape := ⟨2, ![6000, 64]⟩
abbrev S4000x64 : Shape := ⟨2, ![4000, 64]⟩
abbrev S10000x10000 : Shape := ⟨2, ![10000, 10000]⟩
abbrev S10000x64 : Shape := ⟨2, ![10000, 64]⟩
abbrev S200x10000 : Shape := ⟨2, ![200, 10000]⟩
abbrev S200x64 : Shape := ⟨2, ![200, 64]⟩
abbrev S2x10000x64 : Shape := ⟨3, ![2, 10000, 64]⟩
abbrev S1x200x64 : Shape := ⟨3, ![1, 200, 64]⟩
abbrev S1x10000x64 : Shape := ⟨3, ![1, 10000, 64]⟩

abbrev nBuf : Space → Nat
  | .hbm => 6
  | .vmem => 8
  | .smem => 0
  | _ => 0

abbrev bufTy : (tb : Table) → Fin (tcTables nBuf tb) → BufTy
  | .hbm, ⟨0, _⟩ => ⟨S6000x64, .f32⟩
  | .hbm, ⟨1, _⟩ => ⟨S4000x64, .f32⟩
  | .hbm, ⟨2, _⟩ => ⟨S10000x10000, .f32⟩
  | .hbm, ⟨3, _⟩ => ⟨S10000x64, .f32⟩
  | .hbm, ⟨4, _⟩ => ⟨S6000x64, .f32⟩
  | .hbm, ⟨5, _⟩ => ⟨S4000x64, .f32⟩
  | .local _ .vmem, ⟨0, _⟩ => ⟨S200x10000, .f32⟩
  | .local _ .vmem, ⟨1, _⟩ => ⟨S200x10000, .f32⟩
  | .local _ .vmem, ⟨2, _⟩ => ⟨S10000x64, .f32⟩
  | .local _ .vmem, ⟨3, _⟩ => ⟨S200x64, .f32⟩
  | .local _ .vmem, ⟨4, _⟩ => ⟨S200x64, .f32⟩
  | .local _ .vmem, ⟨5, _⟩ => ⟨S200x64, .f32⟩
  | .local _ .vmem, ⟨6, _⟩ => ⟨S200x64, .f32⟩
  | .local _ .vmem, ⟨7, _⟩ => ⟨S2x10000x64, .f32⟩
  | _, _ => ⟨S6000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 50], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c200_i32 : BitVec 32 := 200#32
  let v0 : BitVec 32 := Scalar.muli arg1 c200_i32
  let v23 : Index := Scalar.indexCast v0
  let c0_10 : Index := 0#32
  ![v23.toNat, 0]
def k0_off2 (i : grid0.Coords) : Fin 3 → Nat :=
  let c0_12 : Index := 0#32
  let arg1 : BitVec 32 := BitVec.ofNat 32 (i 1).val
  let c200_i32 : BitVec 32 := 200#32
  let v0 : BitVec 32 := Scalar.muli arg1 c200_i32
  let v29 : Index := Scalar.indexCast v0
  let c0_13 : Index := 0#32
  ![0, v29.toNat, 0]
def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off3 (i : grid0.Coords) : Fin 2 → Nat :=
  let arg1 : BitVec 32 := BitVec.ofNat 32 (i 1).val
  let c200_i32 : BitVec 32 := 200#32
  let v0 : BitVec 32 := Scalar.muli arg1 c200_i32
  let v21 : Index := Scalar.indexCast v0
  let c0_10 : Index := 0#32
  ![v21.toNat, 0]
def k0_off4 (i : grid0.Coords) : Fin 3 → Nat :=
  let c1 : Index := 1#32
  let arg1 : BitVec 32 := BitVec.ofNat 32 (i 1).val
  let c200_i32 : BitVec 32 := 200#32
  let v0 : BitVec 32 := Scalar.muli arg1 c200_i32
  let v27 : Index := Scalar.indexCast v0
  let c0_12 : Index := 0#32
  ![1, v27.toNat, 0]
def k0_cond3 (i : grid0.Coords) : BitVec 1 :=
  let arg0 : BitVec 32 := BitVec.ofNat 32 (i 0).val
  let c2_i32 : BitVec 32 := 2#32
  let v7 : BitVec 1 := Scalar.cmpi .eq arg0 c2_i32
  let arg1 : BitVec 32 := BitVec.ofNat 32 (i 1).val
  let c30_i32 : BitVec 32 := 30#32
  let v8 : BitVec 1 := Scalar.cmpi .slt arg1 c30_i32
  let v9 : BitVec 1 := Scalar.andi v7 v8
  let v10 : BitVec 32 := Scalar.extui v9
  let c0_i32_2 : BitVec 32 := 0#32
  let v11 : BitVec 1 := Scalar.cmpi .ne v10 c0_i32_2
  v11

def k0_off5 (i : grid0.Coords) : Fin 2 → Nat :=
  let arg1 : BitVec 32 := BitVec.ofNat 32 (i 1).val
  let c200_i32 : BitVec 32 := 200#32
  let v0 : BitVec 32 := Scalar.muli arg1 c200_i32
  let v21 : Index := Scalar.indexCast v0
  let c0_9 : Index := 0#32
  ![v21.toNat, 0]
def k0_cond4 (i : grid0.Coords) : BitVec 1 :=
  let arg0 : BitVec 32 := BitVec.ofNat 32 (i 0).val
  let c2_i32_3 : BitVec 32 := 2#32
  let v12 : BitVec 1 := Scalar.cmpi .eq arg0 c2_i32_3
  let arg1 : BitVec 32 := BitVec.ofNat 32 (i 1).val
  let c30_i32_4 : BitVec 32 := 30#32
  let v13 : BitVec 1 := Scalar.cmpi .sge arg1 c30_i32_4
  let v14 : BitVec 1 := Scalar.andi v12 v13
  let v15 : BitVec 32 := Scalar.extui v14
  let c0_i32_5 : BitVec 32 := 0#32
  let v16 : BitVec 1 := Scalar.cmpi .ne v15 c0_i32_5
  v16

def k0_off6 (i : grid0.Coords) : Fin 2 → Nat :=
  let arg1 : BitVec 32 := BitVec.ofNat 32 (i 1).val
  let c200_i32 : BitVec 32 := 200#32
  let v0 : BitVec 32 := Scalar.muli arg1 c200_i32
  let v21 : Index := Scalar.indexCast v0
  let c0_9 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c29_i32 : BitVec 32 := 29#32
  let v1 : BitVec 32 := Scalar.minsi arg1 c29_i32
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c30_i32 : BitVec 32 := 30#32
  let v1 : BitVec 32 := Scalar.subi arg1 c30_i32
  let c0_i32 : BitVec 32 := 0#32
  let v2 : BitVec 32 := Scalar.maxsi v1 c0_i32
  let c0_i32_0 : BitVec 32 := 0#32
  let v3 : BitVec 32 := Scalar.select v0 v2 c0_i32_0
  let c0_i32_1 : BitVec 32 := 0#32
  let c0_i32_2 : BitVec 32 := 0#32
  ![v3.toNat, c0_i32_1.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S6000x64_S4000x64_S10000x64_d0 : Shape.Concatenates [S6000x64, S4000x64] S10000x64 0
  inb_S200x10000_S200x10000_0_0 : ∀ a, (![0, 0] : Fin 2 → Nat) a + S200x10000.size a ≤ S200x10000.size a
  h_S200x10000 : 0 < S200x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  h_S200x64 : 0 < S200x64.numel
  shapeCasts_S200x64_S200x64 : S200x64.ShapeCasts S200x64
  h_S1x200x64 : 0 < S1x200x64.numel
  shapeCasts_S1x200x64_S200x64 : S1x200x64.ShapeCasts S200x64
  shapeCasts_S200x64_S1x200x64 : S200x64.ShapeCasts S1x200x64
  inb_S2x10000x64_S1x10000x64_0_0_0 : ∀ a, (![0, 0, 0] : Fin 3 → Nat) a + S1x10000x64.size a ≤ S2x10000x64.size a
  h_S1x10000x64 : 0 < S1x10000x64.numel
  shapeCasts_S1x10000x64_S10000x64 : S1x10000x64.ShapeCasts S10000x64
  inb_S2x10000x64_S1x10000x64_1_0_0 : ∀ a, (![1, 0, 0] : Fin 3 → Nat) a + S1x10000x64.size a ≤ S2x10000x64.size a
  inb_S200x64_S200x64_0_0 : ∀ a, (![0, 0] : Fin 2 → Nat) a + S200x64.size a ≤ S200x64.size a
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h1 : k0_cond1 i = 1#1), ∀ a, (k0_off1 i) a + S200x64.size a ≤ S10000x64.size a
  k0_off2_inb : ∀ i : grid0.Coords, ∀ (k0_h1 : k0_cond1 i = 1#1), ∀ a, (k0_off2 i) a + S1x200x64.size a ≤ S2x10000x64.size a
  k0_off3_inb : ∀ i : grid0.Coords, ∀ (k0_h2 : k0_cond2 i = 1#1), ∀ a, (k0_off3 i) a + S200x64.size a ≤ S10000x64.size a
  k0_off4_inb : ∀ i : grid0.Coords, ∀ (k0_h2 : k0_cond2 i = 1#1), ∀ a, (k0_off4 i) a + S1x200x64.size a ≤ S2x10000x64.size a
  k0_off5_inb : ∀ i : grid0.Coords, ∀ (k0_h3 : k0_cond3 i = 1#1), ∀ a, (k0_off5 i) a + S200x64.size a ≤ S10000x64.size a
  k0_off6_inb : ∀ i : grid0.Coords, ∀ (k0_h4 : k0_cond4 i = 1#1), ∀ a, (k0_off6 i) a + S200x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S6000x64.size a
  hwx0_2 : ∀ i : grid0.Coords, EltTy.bits .f32 = 32 ∨ (Rect.block (s := S6000x64) S200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x64.size a ≤ S4000x64.size a
  hwx0_3 : ∀ i : grid0.Coords, EltTy.bits .f32 = 32 ∨ (Rect.block (s := S4000x64) S200x64.size (cc0_transform_3 i) (hinb0_3 i)).WholeWords (EltTy.packing .f32)

variable [Facts₀]

def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S200x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S200x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S6000x64 : Shape := ⟨2, ![6000, 64]⟩
abbrev S4000x64 : Shape := ⟨2, ![4000, 64]⟩
abbrev S10000x10000 : Shape := ⟨2, ![10000, 10000]⟩
abbrev S10000x64 : Shape := ⟨2, ![10000, 64]⟩
abbrev S_ : Shape := ⟨0, ![]⟩
abbrev S1x10000x64 : Shape := ⟨3, ![1, 10000, 64]⟩
abbrev S4x10000x64 : Shape := ⟨3, ![4, 10000, 64]⟩

abbrev nBuf : Space → Nat
  | .hbm => 28
  | .vmem => 0
  | .smem => 0
  | _ => 0

abbrev bufTy : (tb : Table) → Fin (tcTables nBuf tb) → BufTy
  | .hbm, ⟨0, _⟩ => ⟨S6000x64, .f32⟩
  | .hbm, ⟨1, _⟩ => ⟨S4000x64, .f32⟩
  | .hbm, ⟨2, _⟩ => ⟨S10000x10000, .f32⟩
  | .hbm, ⟨3, _⟩ => ⟨S10000x64, .f32⟩
  | .hbm, ⟨4, _⟩ => ⟨S_, .f32⟩
  | .hbm, ⟨5, _⟩ => ⟨S10000x64, .f32⟩
  | .hbm, ⟨6, _⟩ => ⟨S10000x64, .f32⟩
  | .hbm, ⟨7, _⟩ => ⟨S10000x64, .f32⟩
  | .hbm, ⟨8, _⟩ => ⟨S_, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S_, .f32⟩
  | .hbm, ⟨17, _⟩ => ⟨S10000x64, .f32⟩
  | .hbm, ⟨18, _⟩ => ⟨S10000x64, .f32⟩
  | .hbm, ⟨19, _⟩ => ⟨S1x10000x64, .f32⟩
  | .hbm, ⟨20, _⟩ => ⟨S1x10000x64, .f32⟩
  | .hbm, ⟨21, _⟩ => ⟨S1x10000x64, .f32⟩
  | .hbm, ⟨22, _⟩ => ⟨S1x10000x64, .f32⟩
  | .hbm, ⟨23, _⟩ => ⟨S4x10000x64, .f32⟩
  | .hbm, ⟨24, _⟩ => ⟨S_, .f32⟩
  | .hbm, ⟨25, _⟩ => ⟨S10000x64, .f32⟩
  | .hbm, ⟨26, _⟩ => ⟨S6000x64, .f32⟩
  | .hbm, ⟨27, _⟩ => ⟨S4000x64, .f32⟩
  | _, _ => ⟨S6000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  concatenates_S6000x64_S4000x64_S10000x64_d0 : Shape.Concatenates [S6000x64, S4000x64] S10000x64 0
  bcast_S_S10000x64 : S_.BroadcastsInDim S10000x64 (![] : Fin 0 → Fin S10000x64.rank)
  bcast_S10000x64_S1x10000x64_1_2 : S10000x64.BroadcastsInDim S1x10000x64 (![1, 2] : Fin 2 → Fin S1x10000x64.rank)
  concatenates_S1x10000x64_S1x10000x64_S1x10000x64_S1x10000x64_S4x10000x64_d0 : Shape.Concatenates [S1x10000x64, S1x10000x64, S1x10000x64, S1x10000x64] S4x10000x64 0
  reducesTo_S4x10000x64_S10000x64_d0 : S4x10000x64.ReducesTo [0] S10000x64
  h_S_ : 0 < S_.numel
  slices_S10000x64_S6000x64_0_0 : S10000x64.Slices ![0, 0] S6000x64
  slices_S10000x64_S4000x64_6000_0 : S10000x64.Slices ![6000, 0] S4000x64
  dot_S10000x10000_S10000x64_S10000x64_1_0_0_1_n_n_wf : DotDims.WF S10000x10000 S10000x64 S10000x64 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelCases.lean ====
import proofs.«137725_g6708738916894_cont_9to1_m_1122_6_alg».proof.Proof.Gen.Kernel.Frame
import proofs.«137725_g6708738916894_cont_9to1_m_1122_6_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point, case by case. The body has four guarded blocks and exactly one guard holds at
    every point: the first layer (rows of the first scratch slab written), the second layer (the first slab read
    whole, rows of the second slab written), and the third layer on the user rows or on the item rows (the second
    slab read whole, the output block written). Each statement says what the block's stores leave, as the list of
    written pieces, over whole memrefs at given contents. -/

set_option maxHeartbeats 1000000 in
/-- First layer: one piece written into the scratch, rows of its first slab. -/
noncomputable def runL0 (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : k0_cond1 i = 1#1) (hc2 : ¬ k0_cond2 i = 1#1) (hc3 : ¬ k0_cond3 i = 1#1) (hc4 : ¬ k0_cond4 i = 1#1)
    (x0 : Vec F S200x10000 .f32) (x1 : Vec F S10000x64 .f32) (x6 : Vec F S2x10000x64 .f32) :
    { L6 : List (View.Piece (Elt F) S2x10000x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (iprop(owns (c : Thread nD τ) arg2 fullShare x0 ∗ owns (c : Thread nD τ) arg3 fullShare x1
                ∗ (arg6.view.loc (c : Thread nD τ) ↦[arg6.view.set]{fullShare} arg6.view.writes (Elt F) (harg6.unread x6) L6)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    iexact H6

set_option maxHeartbeats 1000000 in
/-- Second layer: one piece written into the scratch, rows of its second slab. -/
noncomputable def runL1 (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : k0_cond2 i = 1#1) (hc3 : ¬ k0_cond3 i = 1#1) (hc4 : ¬ k0_cond4 i = 1#1)
    (x0 : Vec F S200x10000 .f32) (x1 : Vec F S10000x64 .f32) (x6 : Vec F S2x10000x64 .f32) :
    { L6 : List (View.Piece (Elt F) S2x10000x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (iprop(owns (c : Thread nD τ) arg2 fullShare x0 ∗ owns (c : Thread nD τ) arg3 fullShare x1
                ∗ (arg6.view.loc (c : Thread nD τ) ↦[arg6.view.set]{fullShare} arg6.view.writes (Elt F) (harg6.unread x6) L6)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    iexact H6

set_option maxHeartbeats 1000000 in
/-- Third layer, user rows: the first output's block written whole; the scratch only read. -/
noncomputable def runL2u (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : ¬ k0_cond2 i = 1#1) (hc3 : k0_cond3 i = 1#1) (hc4 : ¬ k0_cond4 i = 1#1)
    (x0 : Vec F S200x10000 .f32) (x1 : Vec F S10000x64 .f32) (x6 : Vec F S2x10000x64 .f32) :
    { L4 : List (View.Piece (Elt F) S200x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (∃ d, owns (c : Thread nD τ) arg4 fullShare d)
            ∗ (iprop(owns (c : Thread nD τ) arg2 fullShare x0 ∗ owns (c : Thread nD τ) arg3 fullShare x1 ∗ owns (c : Thread nD τ) arg6 fullShare x6
                ∗ (∃ f, arg4.view.loc (c : Thread nD τ) ↦[arg4.view.set]{fullShare} arg4.view.writes (Elt F) f L4)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, ⟨%d4, %f4, -, H4⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H6]
    · iexists _; isplitr; · ipureintro; exact harg6.read_unread _
      iexact H6
    iexists _; iexact H4

set_option maxHeartbeats 1000000 in
/-- Third layer, item rows: the second output's block written whole; the scratch only read. -/
noncomputable def runL2i (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : ¬ k0_cond2 i = 1#1) (hc3 : ¬ k0_cond3 i = 1#1) (hc4 : k0_cond4 i = 1#1)
    (x0 : Vec F S200x10000 .f32) (x1 : Vec F S10000x64 .f32) (x6 : Vec F S2x10000x64 .f32) :
    { L5 : List (View.Piece (Elt F) S200x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (∃ d, owns (c : Thread nD τ) arg5 fullShare d)
            ∗ (iprop(owns (c : Thread nD τ) arg2 fullShare x0 ∗ owns (c : Thread nD τ) arg3 fullShare x1 ∗ owns (c : Thread nD τ) arg6 fullShare x6
                ∗ (∃ f, arg5.view.loc (c : Thread nD τ) ↦[arg5.view.set]{fullShare} arg5.view.writes (Elt F) f L5)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, ⟨%d5, %f5, -, H5⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H6]
    · iexists _; isplitr; · ipureintro; exact harg6.read_unread _
      iexact H6
    iexists _; iexact H5

end Cert.Kernel.Body

end
-- ==== Proof.KernelFrame.lean ====
import proofs.«137725_g6708738916894_cont_9to1_m_1122_6_alg».proof.Proof.KernelCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame of the word-level kernel

The grid has 150 points, point `t` at coordinates `(t / 50, t % 50)`. The body's four guarded blocks partition the
points: the first layer on `t < 50`, the second on `50 ≤ t < 100`, the third layer's user rows on `100 ≤ t < 130` and
its item rows on `130 ≤ t`. At every point the body reads its two input blocks and hands them back as they were, keeps
the scratch (at contents nothing here names), and touches of the two output blocks at most the one its case stores;
what the outputs hold is not stated. So the run ends, and the three argument arrays hold at the end what they held at
the start. -/

/-! ## The guards in closed form, decided over the grid -/

theorem hcond1 : ∀ t : Fin cfg0.N, k0_cond1 (grid0.coords t) = 1#1 ↔ t.val < 50 :=
  (by decide +kernel : ∀ t : Fin grid0.N, k0_cond1 (grid0.coords t) = 1#1 ↔ t.val < 50)
theorem hcond2 : ∀ t : Fin cfg0.N, k0_cond2 (grid0.coords t) = 1#1 ↔ 50 ≤ t.val ∧ t.val < 100 :=
  (by decide +kernel : ∀ t : Fin grid0.N, k0_cond2 (grid0.coords t) = 1#1 ↔ 50 ≤ t.val ∧ t.val < 100)
theorem hcond3 : ∀ t : Fin cfg0.N, k0_cond3 (grid0.coords t) = 1#1 ↔ 100 ≤ t.val ∧ t.val < 130 :=
  (by decide +kernel : ∀ t : Fin grid0.N, k0_cond3 (grid0.coords t) = 1#1 ↔ 100 ≤ t.val ∧ t.val < 130)
theorem hcond4 : ∀ t : Fin cfg0.N, k0_cond4 (grid0.coords t) = 1#1 ↔ 130 ≤ t.val :=
  (by decide +kernel : ∀ t : Fin grid0.N, k0_cond4 (grid0.coords t) = 1#1 ↔ 130 ≤ t.val)

/-- The two input windows are idle at no point. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- Each window's current staging memref at point `t`, as the pipeline passes it to the body. -/
abbrev ms0_0 (t : Fin cfg0.N) : Memref sig .tc .vmem S200x10000 .f32 := win0_0.stage (cfg0.slots t 0)
abbrev ms0_1 (t : Fin cfg0.N) : Memref sig .tc .vmem S10000x64 .f32 := win0_1.stage (cfg0.slots t 1)
abbrev ms0_2 (t : Fin cfg0.N) : Memref sig .tc .vmem S200x64 .f32 := win0_2.stage (cfg0.slots t 2)
abbrev ms0_3 (t : Fin cfg0.N) : Memref sig .tc .vmem S200x64 .f32 := win0_3.stage (cfg0.slots t 3)

/-! ## The pipeline's proof data -/

/-- The two output windows: nothing reads what the kernel leaves in them, so nothing of it is named. -/
def forgets : Fin 4 → Bool := fun w => w.val == 2 || w.val == 3

/-- The proof data on core `c`: the arrays as the region finds them; after the body each input's buffer at its block,
    the outputs unnamed; the invariant the scoped rest (the scratch, at some contents) and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The invariant: the scratch, a whole buffer, owned at some contents, and the generator register at some state. -/
theorem ΦA_eq (c : Dev nD) : (Pipeline.ΦA spec0 c : sProp 𝕄)
    = iprop((∃ f, owns (c : Thread nD τ) (Memref.whole cc0_scratch0) fullShare f) ∗ ∃ r, prngReg c r) := by
  unfold Pipeline.ΦA
  rw [scopedRest0_eq]
  simp only [owns_whole]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d))

set_option maxHeartbeats 1200000 in
/-- The body at any point: the inputs' memrefs hold their blocks; the closed forms say which of the four cases the
    point is in, and that case's run applies: it hands the inputs back as they were, the scratch at what its stores
    left (named by nobody), and the outputs at some contents. The invariant passes through; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    ΦA_eq,
    show (dats m 0 c).leavesExact 0 t = owns (c : Thread nD τ) (ms0_0 t) fullShare ((dats m 0 c).after 0 t) from by
      unfold Dat.leavesExact; rw [liveAt0_0 t],
    show (dats m 0 c).leavesExact 1 t = owns (c : Thread nD τ) (ms0_1 t) fullShare ((dats m 0 c).after 1 t) from by
      unfold Dat.leavesExact; rw [liveAt0_1 t],
    after0_0, after0_1]
  have hN : t.val < 150 := lt_of_lt_of_eq t.isLt (show cfg0.N = 150 from N_0)
  by_cases h1 : t.val < 50
  · -- the first layer
    iintro ⟨⟨⟨%f, Hs⟩, Hr⟩, Ho, ⟨%d0, H0⟩, ⟨%d1, H1⟩, ⟨%d2, H2⟩, ⟨%d3, H3⟩⟩
    iapply ((runL0 c (grid0.coords t) _ _ _ _ _ _ _ _ _ _ ((hcond1 t).mpr (by omega)) (fun h => absurd ((hcond2 t).mp h) (by omega)) (fun h => absurd ((hcond3 t).mp h) (by omega)) (fun h => absurd ((hcond4 t).mp h) (by omega))
      (iblk m c 0 t) (iblk m c 1 t) f).2 Set.univ _)
    isplitl [H0]; · iexact H0
    isplitl [H1]; · iexact H1
    isplitl [Hs]; · iexact Hs
    iintro ⟨H0, H1, H6⟩
    isplitl [H6 Hr]
    · isplitl [H6]
      · iexists _; iapply (owns_intro _ _ _ _); iexact H6
      · iexact Hr
    isplitl [Ho]; · iexact Ho
    isplitl [H0]; · iexact H0
    isplitl [H1]; · iexact H1
    isplitl [H2]; · iexists _; iexact H2
    iexists _; iexact H3
  by_cases h2 : t.val < 100
  · -- the second layer
    iintro ⟨⟨⟨%f, Hs⟩, Hr⟩, Ho, ⟨%d0, H0⟩, ⟨%d1, H1⟩, ⟨%d2, H2⟩, ⟨%d3, H3⟩⟩
    iapply ((runL1 c (grid0.coords t) _ _ _ _ _ _ _ _ _ _ (fun h => absurd ((hcond1 t).mp h) (by omega)) ((hcond2 t).mpr (by omega)) (fun h => absurd ((hcond3 t).mp h) (by omega)) (fun h => absurd ((hcond4 t).mp h) (by omega))
      (iblk m c 0 t) (iblk m c 1 t) f).2 Set.univ _)
    isplitl [H0]; · iexact H0
    isplitl [H1]; · iexact H1
    isplitl [Hs]; · iexact Hs
    iintro ⟨H0, H1, H6⟩
    isplitl [H6 Hr]
    · isplitl [H6]
      · iexists _; iapply (owns_intro _ _ _ _); iexact H6
      · iexact Hr
    isplitl [Ho]; · iexact Ho
    isplitl [H0]; · iexact H0
    isplitl [H1]; · iexact H1
    isplitl [H2]; · iexists _; iexact H2
    iexists _; iexact H3
  by_cases h3 : t.val < 130
  · -- the third layer, user rows
    iintro ⟨⟨⟨%f, Hs⟩, Hr⟩, Ho, ⟨%d0, H0⟩, ⟨%d1, H1⟩, ⟨%d2, H2⟩, ⟨%d3, H3⟩⟩
    iapply ((runL2u c (grid0.coords t) _ _ _ _ _ _ _ _ _ _ (fun h => absurd ((hcond1 t).mp h) (by omega)) (fun h => absurd ((hcond2 t).mp h) (by omega)) ((hcond3 t).mpr (by omega)) (fun h => absurd ((hcond4 t).mp h) (by omega))
      (iblk m c 0 t) (iblk m c 1 t) f).2 Set.univ _)
    isplitl [H0]; · iexact H0
    isplitl [H1]; · iexact H1
    isplitl [Hs]; · iexact Hs
    isplitl [H2]; · iexists _; iexact H2
    iintro ⟨H0, H1, H6, ⟨%f4, H4⟩⟩
    isplitl [H6 Hr]
    · isplitl [H6]
      · iexists _; iexact H6
      · iexact Hr
    isplitl [Ho]; · iexact Ho
    isplitl [H0]; · iexact H0
    isplitl [H1]; · iexact H1
    isplitl [H4]
    · iexists _; iapply (owns_intro _ _ _ _); iexact H4
    iexists _; iexact H3
  · -- the third layer, item rows
    iintro ⟨⟨⟨%f, Hs⟩, Hr⟩, Ho, ⟨%d0, H0⟩, ⟨%d1, H1⟩, ⟨%d2, H2⟩, ⟨%d3, H3⟩⟩
    iapply ((runL2i c (grid0.coords t) _ _ _ _ _ _ _ _ _ _ (fun h => absurd ((hcond1 t).mp h) (by omega)) (fun h => absurd ((hcond2 t).mp h) (by omega)) (fun h => absurd ((hcond3 t).mp h) (by omega)) ((hcond4 t).mpr (by omega))
      (iblk m c 0 t) (iblk m c 1 t) f).2 Set.univ _)
    isplitl [H0]; · iexact H0
    isplitl [H1]; · iexact H1
    isplitl [Hs]; · iexact Hs
    isplitl [H3]; · iexists _; iexact H3
    iintro ⟨H0, H1, H6, ⟨%f4, H4⟩⟩
    isplitl [H6 Hr]
    · isplitl [H6]
      · iexists _; iexact H6
      · iexact Hr
    isplitl [Ho]; · iexact Ho
    isplitl [H0]; · iexact H0
    isplitl [H1]; · iexact H1
    isplitl [H2]; · iexists _; iexact H2
    iexists _; iapply (owns_intro _ _ _ _); iexact H4

/-- The library's body obligation, at every point, the two outputs forgotten. -/
theorem body_obligation (c : Dev nD) : BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- From any memory with zero counters every weakly fair execution of the program on the TensorCores terminates, and
    every final state has the inputs' arrays as at the region's entry (nothing is said of the outputs') and every other
    unscoped buffer at its region-entry contents. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the run ends, and the three argument arrays are unchanged — the first two bypass the region and no host
    operation before it writes them; the third is the first window's array, an input, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Eq.mp (congrFun (((dats m 0 c).toRForget forgets).ArrAt_in 0 rfl _) _) ((h c).1 0)).trans
        ((A_eq m c 0).trans (V_main_arg2 m c))⟩) (run_main m ρ)

end Cert.Kernel.Body

end
-- ==== Proof.IdealCases.lean ====
import proofs.«137725_g6708738916894_cont_9to1_m_1122_6_alg».proof.Proof.Gen.KernelIdeal.Frame
import proofs.«137725_g6708738916894_cont_9to1_m_1122_6_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point, case by case. The body has four guarded blocks and exactly one guard holds at
    every point: the first layer (rows of the first scratch slab written), the second layer (the first slab read
    whole, rows of the second slab written), and the third layer on the user rows or on the item rows (the second
    slab read whole, the output block written). Each statement says what the block's stores leave, as the list of
    written pieces, over whole memrefs at given contents. -/

set_option maxHeartbeats 1000000 in
/-- First layer: one piece written into the scratch, rows of its first slab. -/
noncomputable def runL0 (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : k0_cond1 i = 1#1) (hc2 : ¬ k0_cond2 i = 1#1) (hc3 : ¬ k0_cond3 i = 1#1) (hc4 : ¬ k0_cond4 i = 1#1)
    (x0 : Vec F S200x10000 .f32) (x1 : Vec F S10000x64 .f32) (x6 : Vec F S2x10000x64 .f32) :
    { L6 : List (View.Piece (Elt F) S2x10000x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (iprop(owns (c : Thread nD τ) arg2 fullShare x0 ∗ owns (c : Thread nD τ) arg3 fullShare x1
                ∗ (arg6.view.loc (c : Thread nD τ) ↦[arg6.view.set]{fullShare} arg6.view.writes (Elt F) (harg6.unread x6) L6)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    iexact H6

set_option maxHeartbeats 1000000 in
/-- Second layer: one piece written into the scratch, rows of its second slab. -/
noncomputable def runL1 (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : k0_cond2 i = 1#1) (hc3 : ¬ k0_cond3 i = 1#1) (hc4 : ¬ k0_cond4 i = 1#1)
    (x0 : Vec F S200x10000 .f32) (x1 : Vec F S10000x64 .f32) (x6 : Vec F S2x10000x64 .f32) :
    { L6 : List (View.Piece (Elt F) S2x10000x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (iprop(owns (c : Thread nD τ) arg2 fullShare x0 ∗ owns (c : Thread nD τ) arg3 fullShare x1
                ∗ (arg6.view.loc (c : Thread nD τ) ↦[arg6.view.set]{fullShare} arg6.view.writes (Elt F) (harg6.unread x6) L6)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    iexact H6

set_option maxHeartbeats 1000000 in
/-- Third layer, user rows: the first output's block written whole; the scratch only read. -/
noncomputable def runL2u (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : ¬ k0_cond2 i = 1#1) (hc3 : k0_cond3 i = 1#1) (hc4 : ¬ k0_cond4 i = 1#1)
    (x0 : Vec F S200x10000 .f32) (x1 : Vec F S10000x64 .f32) (x6 : Vec F S2x10000x64 .f32) :
    { L4 : List (View.Piece (Elt F) S200x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (∃ d, owns (c : Thread nD τ) arg4 fullShare d)
            ∗ (iprop(owns (c : Thread nD τ) arg2 fullShare x0 ∗ owns (c : Thread nD τ) arg3 fullShare x1 ∗ owns (c : Thread nD τ) arg6 fullShare x6
                ∗ (∃ f, arg4.view.loc (c : Thread nD τ) ↦[arg4.view.set]{fullShare} arg4.view.writes (Elt F) f L4)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, ⟨%d4, %f4, -, H4⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H6]
    · iexists _; isplitr; · ipureintro; exact harg6.read_unread _
      iexact H6
    iexists _; iexact H4

set_option maxHeartbeats 1000000 in
/-- Third layer, item rows: the second output's block written whole; the scratch only read. -/
noncomputable def runL2i (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : ¬ k0_cond2 i = 1#1) (hc3 : ¬ k0_cond3 i = 1#1) (hc4 : k0_cond4 i = 1#1)
    (x0 : Vec F S200x10000 .f32) (x1 : Vec F S10000x64 .f32) (x6 : Vec F S2x10000x64 .f32) :
    { L5 : List (View.Piece (Elt F) S200x64 .f32) //
      ∀ (E : Set ℕ) (K : PUnit → sProp 𝕄),
        iprop(owns (c : Thread nD τ) arg2 fullShare x0 ∗ owns (c : Thread nD τ) arg3 fullShare x1 ∗ owns (c : Thread nD τ) arg6 fullShare x6
            ∗ (∃ d, owns (c : Thread nD τ) arg5 fullShare d)
            ∗ (iprop(owns (c : Thread nD τ) arg2 fullShare x0 ∗ owns (c : Thread nD τ) arg3 fullShare x1 ∗ owns (c : Thread nD τ) arg6 fullShare x6
                ∗ (∃ f, arg5.view.loc (c : Thread nD τ) ↦[arg5.view.set]{fullShare} arg5.view.writes (Elt F) f L5)) -∗ K ⟨⟩))
          ⊢ wp frame (wpE (defs₀ (F := F)) Variants.none c none) E (cc0__qgcn_kernel i arg2 harg2 arg3 harg3 arg4 harg4 arg5 harg5 arg6 harg6) K } := by
  refine ⟨?_, fun E K => ?run⟩
  case run =>
    simp only [cc0__qgcn_kernel_eq_skeleton]; unfold cc0__qgcn_kernel_skel
    unfold owns
    iintro ⟨⟨%f0, %hf0, H0⟩, ⟨%f1, %hf1, H1⟩, ⟨%f6, %hf6, H6⟩, ⟨%d5, %f5, -, H5⟩, Hk⟩
    obtain rfl := harg2.eq_unread hf0; obtain rfl := harg3.eq_unread hf1; obtain rfl := harg6.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H6]
    · iexists _; isplitr; · ipureintro; exact harg6.read_unread _
      iexact H6
    iexists _; iexact H5

end Cert.KernelIdeal.Body

end
-- ==== Proof.IdealPoints.lean ====
import proofs.«137725_g6708738916894_cont_9to1_m_1122_6_alg».proof.Proof.Gen.KernelIdeal.Frame
import proofs.«137725_g6708738916894_cont_9to1_m_1122_6_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The grid's 150 points in closed form: point `t` is at layer `t / 50` and row block `t % 50`. Which guard of the
    body holds there, where its accesses start, which block each window is on, and where the two output windows are
    written back: each decided once over the grid. -/

theorem hN (t : Fin cfg0.N) : t.val < 150 := lt_of_lt_of_eq t.isLt (show cfg0.N = 150 from N_0)

/-- The first guard holds exactly on the first layer. -/
theorem hcond1 : ∀ t : Fin cfg0.N, k0_cond1 (grid0.coords t) = 1#1 ↔ t.val < 50 :=
  (by decide +kernel : ∀ t : Fin grid0.N, k0_cond1 (grid0.coords t) = 1#1 ↔ t.val < 50)
/-- The second guard holds exactly on the second layer. -/
theorem hcond2 : ∀ t : Fin cfg0.N, k0_cond2 (grid0.coords t) = 1#1 ↔ (50 ≤ t.val ∧ t.val < 100) :=
  (by decide +kernel : ∀ t : Fin grid0.N, k0_cond2 (grid0.coords t) = 1#1 ↔ (50 ≤ t.val ∧ t.val < 100))
/-- The third guard holds exactly on the third layer's user rows. -/
theorem hcond3 : ∀ t : Fin cfg0.N, k0_cond3 (grid0.coords t) = 1#1 ↔ (100 ≤ t.val ∧ t.val < 130) :=
  (by decide +kernel : ∀ t : Fin grid0.N, k0_cond3 (grid0.coords t) = 1#1 ↔ (100 ≤ t.val ∧ t.val < 130))
/-- The fourth guard holds exactly on the third layer's item rows. -/
theorem hcond4 : ∀ t : Fin cfg0.N, k0_cond4 (grid0.coords t) = 1#1 ↔ 130 ≤ t.val :=
  (by decide +kernel : ∀ t : Fin grid0.N, k0_cond4 (grid0.coords t) = 1#1 ↔ 130 ≤ t.val)

/-- The row accesses of the table start at row `200 (t % 50)`. -/
theorem off1_eq : ∀ t : Fin cfg0.N, k0_off1 (grid0.coords t) = ![200 * (t.val % 50), 0] :=
  (by decide +kernel : ∀ t : Fin grid0.N, k0_off1 (grid0.coords t) = ![200 * (t.val % 50), 0])
theorem off3_eq : ∀ t : Fin cfg0.N, k0_off3 (grid0.coords t) = ![200 * (t.val % 50), 0] :=
  (by decide +kernel : ∀ t : Fin grid0.N, k0_off3 (grid0.coords t) = ![200 * (t.val % 50), 0])
theorem off5_eq : ∀ t : Fin cfg0.N, k0_off5 (grid0.coords t) = ![200 * (t.val % 50), 0] :=
  (by decide +kernel : ∀ t : Fin grid0.N, k0_off5 (grid0.coords t) = ![200 * (t.val % 50), 0])
theorem off6_eq : ∀ t : Fin cfg0.N, k0_off6 (grid0.coords t) = ![200 * (t.val % 50), 0] :=
  (by decide +kernel : ∀ t : Fin grid0.N, k0_off6 (grid0.coords t) = ![200 * (t.val % 50), 0])
/-- The scratch accesses start at the same row of slab 0 (first layer) or slab 1 (second layer). -/
theorem off2_eq : ∀ t : Fin cfg0.N, k0_off2 (grid0.coords t) = ![0, 200 * (t.val % 50), 0] :=
  (by decide +kernel : ∀ t : Fin grid0.N, k0_off2 (grid0.coords t) = ![0, 200 * (t.val % 50), 0])
theorem off4_eq : ∀ t : Fin cfg0.N, k0_off4 (grid0.coords t) = ![1, 200 * (t.val % 50), 0] :=
  (by decide +kernel : ∀ t : Fin grid0.N, k0_off4 (grid0.coords t) = ![1, 200 * (t.val % 50), 0])

/-- The matrix window is on row block `t % 50`. -/
theorem idx0_eq : ∀ t : Fin cfg0.N, (cfg0.win 0).index t = ![t.val % 50, 0] :=
  (by decide +kernel : ∀ t : Fin grid0.N, win0_0.index t = ![t.val % 50, 0])
/-- The table window is always on its one block. -/
theorem idx1_eq : ∀ t : Fin cfg0.N, (cfg0.win 1).index t = ![0, 0] :=
  (by decide +kernel : ∀ t : Fin grid0.N, win0_1.index t = ![0, 0])
/-- The user output's window is on block `min (t - 100) 29` (block 0 before the third layer). -/
theorem idx2_eq : ∀ t : Fin cfg0.N, (cfg0.win 2).index t = ![min (t.val - 100) 29, 0] :=
  (by decide +kernel : ∀ t : Fin grid0.N, win0_2.index t = ![min (t.val - 100) 29, 0])
/-- The item output's window is on block `t - 130` (block 0 before the item rows). -/
theorem idx3_eq : ∀ t : Fin cfg0.N, (cfg0.win 3).index t = ![t.val - 130, 0] :=
  (by decide +kernel : ∀ t : Fin grid0.N, win0_3.index t = ![t.val - 130, 0])

/-- The user output is written back after each of its blocks but the last, and at the very end. -/
theorem flush2_iff : ∀ t : Fin cfg0.N, (cfg0.win 2).flush t = true ↔ ((100 ≤ t.val ∧ t.val < 129) ∨ t.val = 149) :=
  (by decide +kernel : ∀ t : Fin grid0.N, win0_2.flush t = true ↔ ((100 ≤ t.val ∧ t.val < 129) ∨ t.val = 149))
/-- The item output is written back after each of its blocks. -/
theorem flush3_iff : ∀ t : Fin cfg0.N, (cfg0.win 3).flush t = true ↔ 130 ≤ t.val :=
  (by decide +kernel : ∀ t : Fin grid0.N, win0_3.flush t = true ↔ 130 ≤ t.val)

end Cert.KernelIdeal.Body

end
-- ==== Proof.IdealPieces.lean ====
import proofs.«137725_g6708738916894_cont_9to1_m_1122_6_alg».proof.Proof.Gen.KernelIdeal.Frame
import proofs.«137725_g6708738916894_cont_9to1_m_1122_6_alg».proof.Proof.Gen.KernelIdeal.Skeleton
import proofs.«137725_g6708738916894_cont_9to1_m_1122_6_alg».proof.Proof.IdealCases
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each case's stores leave, piece by piece: one store per case, its rectangle and its value as the body's
    pure term of the loaded blocks (the whole loads read the contents themselves). -/

theorem hz2 : (![0, 0] : Fin 2 → Nat) = fun _ => 0 := funext fun a => by fin_cases a <;> rfl

/-- First layer: rows of the first slab, the first stored value of the matrix tile, the table and the table's rows. -/
theorem runL0_pieces (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : k0_cond1 i = 1#1) (hc2 : ¬ k0_cond2 i = 1#1) (hc3 : ¬ k0_cond3 i = 1#1) (hc4 : ¬ k0_cond4 i = 1#1) (x0 : Vec F S200x10000 .f32) (x1 : Vec F S10000x64 .f32) (x6 : Vec F S2x10000x64 .f32) :
    (runL0 c i arg2 harg2 arg3 harg3 arg4 harg4 arg5 harg5 arg6 harg6 hc1 hc2 hc3 hc4 x0 x1 x6).1
      = [⟨Rect.unit (s := S2x10000x64) (k0_off2 i) S1x200x64.size (k0_off2_inb i hc1),
          k0_pay1 x0 x1 (View.ld x1 (Rect.unit (s := S10000x64) (k0_off1 i) S200x64.size (k0_off1_inb i hc1)))⟩] := by
  unfold runL0
  dsimp only
  simp only [View.readAt_eq_ld, harg2.read_unread, harg3.read_unread, harg6.read_unread, View.ld_unit_zero (S := S200x10000) hz2, View.ld_unit_zero (S := S10000x64) hz2]

/-- Second layer: rows of the second slab, the second stored value of the tile, the first slab and the table's rows. -/
theorem runL1_pieces (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : k0_cond2 i = 1#1) (hc3 : ¬ k0_cond3 i = 1#1) (hc4 : ¬ k0_cond4 i = 1#1) (x0 : Vec F S200x10000 .f32) (x1 : Vec F S10000x64 .f32) (x6 : Vec F S2x10000x64 .f32) :
    (runL1 c i arg2 harg2 arg3 harg3 arg4 harg4 arg5 harg5 arg6 harg6 hc1 hc2 hc3 hc4 x0 x1 x6).1
      = [⟨Rect.unit (s := S2x10000x64) (k0_off4 i) S1x200x64.size (k0_off4_inb i hc2),
          k0_pay2 x0 (View.ld x6 (Rect.unit (s := S2x10000x64) ![0, 0, 0] S1x10000x64.size inb_S2x10000x64_S1x10000x64_0_0_0))
            (View.ld x1 (Rect.unit (s := S10000x64) (k0_off3 i) S200x64.size (k0_off3_inb i hc2)))⟩] := by
  unfold runL1
  dsimp only
  simp only [View.readAt_eq_ld, harg2.read_unread, harg3.read_unread, harg6.read_unread, View.ld_unit_zero (S := S200x10000) hz2, View.ld_unit_zero (S := S10000x64) hz2]

/-- Third layer, user rows: the output block whole, the third stored value of the tile, the second slab and the rows. -/
theorem runL2u_pieces (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : ¬ k0_cond2 i = 1#1) (hc3 : k0_cond3 i = 1#1) (hc4 : ¬ k0_cond4 i = 1#1) (x0 : Vec F S200x10000 .f32) (x1 : Vec F S10000x64 .f32) (x6 : Vec F S2x10000x64 .f32) :
    (runL2u c i arg2 harg2 arg3 harg3 arg4 harg4 arg5 harg5 arg6 harg6 hc1 hc2 hc3 hc4 x0 x1 x6).1
      = [⟨Rect.unit (s := S200x64) ![0, 0] S200x64.size inb_S200x64_S200x64_0_0,
          k0_pay3 x0 (View.ld x6 (Rect.unit (s := S2x10000x64) ![1, 0, 0] S1x10000x64.size inb_S2x10000x64_S1x10000x64_1_0_0))
            (View.ld x1 (Rect.unit (s := S10000x64) (k0_off5 i) S200x64.size (k0_off5_inb i hc3)))⟩] := by
  unfold runL2u
  dsimp only
  simp only [View.readAt_eq_ld, harg2.read_unread, harg3.read_unread, harg6.read_unread, View.ld_unit_zero (S := S200x10000) hz2, View.ld_unit_zero (S := S10000x64) hz2]

/-- Third layer, item rows: the same with the fourth stored value. -/
theorem runL2i_pieces (c : Dev nD) (i : grid0.Coords)
    (arg2 : Memref sig .tc .vmem S200x10000 .f32) (harg2 : arg2.IsWhole) (arg3 : Memref sig .tc .vmem S10000x64 .f32) (harg3 : arg3.IsWhole)
    (arg4 : Memref sig .tc .vmem S200x64 .f32) (harg4 : arg4.IsWhole) (arg5 : Memref sig .tc .vmem S200x64 .f32) (harg5 : arg5.IsWhole)
    (arg6 : Memref sig .tc .vmem S2x10000x64 .f32) (harg6 : arg6.IsWhole)
    (hc1 : ¬ k0_cond1 i = 1#1) (hc2 : ¬ k0_cond2 i = 1#1) (hc3 : ¬ k0_cond3 i = 1#1) (hc4 : k0_cond4 i = 1#1) (x0 : Vec F S200x10000 .f32) (x1 : Vec F S10000x64 .f32) (x6 : Vec F S2x10000x64 .f32) :
    (runL2i c i arg2 harg2 arg3 harg3 arg4 harg4 arg5 harg5 arg6 harg6 hc1 hc2 hc3 hc4 x0 x1 x6).1
      = [⟨Rect.unit (s := S200x64) ![0, 0] S200x64.size inb_S200x64_S200x64_0_0,
          k0_pay4 x0 (View.ld x6 (Rect.unit (s := S2x10000x64) ![1, 0, 0] S1x10000x64.size inb_S2x10000x64_S1x10000x64_1_0_0))
            (View.ld x1 (Rect.unit (s := S10000x64) (k0_off6 i) S200x64.size (k0_off6_inb i hc4)))⟩] := by
  unfold runL2i
  dsimp only
  simp only [View.readAt_eq_ld, harg2.read_unread, harg3.read_unread, harg6.read_unread, View.ld_unit_zero (S := S200x10000) hz2, View.ld_unit_zero (S := S10000x64) hz2]

end Cert.KernelIdeal.Body

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«137725_g6708738916894_cont_9to1_m_1122_6_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.Horner.lean ====
/-
  The layered propagation in Horner form, as pure functions on tables of extended reals.

  With `A` the 10000 × 10000 propagation matrix, `X` the 10000 × 64 embedding table and `q` the weight one quarter,
  a propagation step is the matrix product `A · Y`. The Horner form builds
      r1 = q (A X) + q X,   r2 = A r1 + q X,   r3 = A r2 + q X,
  which over the reals is the weighted sum q X + q A X + q A² X + q A³ X of the powers applied to X.
-/
import Idealize.ShloMosaic.PureOps.Ideal
import Idealize.ShloMosaic.Lib.ValueIdx

noncomputable section

namespace Cert.Horner

open Idealize.ShloMosaic Idealize.ShloMosaic.ValueIdx

/-- A 10000 × 10000 matrix of extended reals. -/
abbrev Mat : Type := (⟨2, ![10000, 10000]⟩ : Shape).Idx → EReal
/-- A 10000 × 64 table of extended reals. -/
abbrev Tab : Type := (⟨2, ![10000, 64]⟩ : Shape).Idx → EReal

/-- The weight of every layer: the f32 word of one quarter. -/
def q : EReal := Ideal.ofBits .f32 0x3E800000#32

/-- One propagation step: the matrix product `A · Y`, entry by entry. -/
def step (A : Mat) (Y : Tab) : Tab := fun i => ∑ k : Fin 10000, A (ix2 (i 0) k) * Y (ix2 k (i 1))

/-- The first Horner layer, `q (A X) + q X`. -/
def r1 (A : Mat) (X : Tab) : Tab := fun i => q * step A X i + q * X i
/-- The second Horner layer, `A r1 + q X`. -/
def r2 (A : Mat) (X : Tab) : Tab := fun i => step A (r1 A X) i + q * X i
/-- The third Horner layer, `A r2 + q X`: the result table. -/
def r3 (A : Mat) (X : Tab) : Tab := fun i => step A (r2 A X) i + q * X i

end Cert.Horner

end
-- ==== Proof.IdealPayload.lean ====
/-
  The kernel body's four stored values, read at an index of their block, at the exact values.

  Every guarded block of the body forms the product of a 200-row tile of the matrix with a whole 10000 × 64 table into a
  zero accumulator and adds one quarter of the tile's rows of the embedding table; the first block also scales the
  product by one quarter. At the exact values the product into zero is the plain contraction sum, so entry `(p, c)` of
  the stored value is `[q ·] ∑ₖ tile (p, k) · table (k, c) + q · rows (p, c)`.
-/
import proofs.«137725_g6708738916894_cont_9to1_m_1122_6_alg».proof.Proof.Gen.KernelIdeal.Skeleton
import proofs.«137725_g6708738916894_cont_9to1_m_1122_6_alg».proof.Proof.LibBlockMatmul
import proofs.«137725_g6708738916894_cont_9to1_m_1122_6_alg».proof.Proof.Horner
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

variable [Cert.KernelIdeal.Facts]

theorem lhs0 (i : S200x64.Idx) (k : dot_S200x10000_S10000x64_S200x64_1_0_0_1_n_n.contr.Idx) : (dot_S200x10000_S10000x64_S200x64_1_0_0_1_n_n.lhsIdx i k 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem lhs1 (i : S200x64.Idx) (k : dot_S200x10000_S10000x64_S200x64_1_0_0_1_n_n.contr.Idx) : (dot_S200x10000_S10000x64_S200x64_1_0_0_1_n_n.lhsIdx i k 1).val = (k ⟨0, by decide⟩).val :=
  dot_S200x10000_S10000x64_S200x64_1_0_0_1_n_n.lhsIdx_val_of_single rfl i k
theorem rhs0 (i : S200x64.Idx) (k : dot_S200x10000_S10000x64_S200x64_1_0_0_1_n_n.contr.Idx) : (dot_S200x10000_S10000x64_S200x64_1_0_0_1_n_n.rhsIdx i k 0).val = (k ⟨0, by decide⟩).val :=
  dot_S200x10000_S10000x64_S200x64_1_0_0_1_n_n.rhsIdx_val_of_single rfl i k
theorem rhs1 (i : S200x64.Idx) (k : dot_S200x10000_S10000x64_S200x64_1_0_0_1_n_n.contr.Idx) : (dot_S200x10000_S10000x64_S200x64_1_0_0_1_n_n.rhsIdx i k 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

/-- The tile's product into the zero accumulator, entry by entry: the contraction sum. -/
theorem tile_product (l : FVec Ideal S200x10000 .f32) (r : FVec Ideal S10000x64 .f32) (p : Fin 200) (cc : Fin 64) :
    matmul dot_S200x10000_S10000x64_S200x64_1_0_0_1_n_n none l r (constant (F := Ideal) S200x64 .f32 0x00000000#32) (ix2 p cc)
      = ∑ k : Fin 10000, (l (ix2 p k) : EReal) * (r (ix2 k cc) : EReal) :=
  Cert.BlockMatmul.matmul_zero_fin dot_S200x10000_S10000x64_S200x64_1_0_0_1_n_n rfl rfl lhs0 lhs1 rhs0 rhs1 none l r (ix2 p cc)

/-- First layer: `q · (tile · table) + q · rows`. -/
theorem pay1_apply (x0 : Vec Ideal S200x10000 .f32) (x1 : Vec Ideal S10000x64 .f32) (xr : Vec Ideal S200x64 .f32)
    (u : Fin 1) (p : Fin 200) (cc : Fin 64) :
    k0_pay1 (F := Ideal) x0 x1 xr (ix3 u p cc)
      = Cert.Horner.q * (∑ k : Fin 10000, (x0 (ix2 p k) : EReal) * (x1 (ix2 k cc) : EReal)) + Cert.Horner.q * (xr (ix2 p cc) : EReal) := by
  unfold k0_pay1
  refine (shapeCast_ab_1ab_apply _ _ u p cc).trans ?_
  rw [shapeCast_self, shapeCast_self]
  show (Ideal.ofBits .f32 0x3E800000#32) * (matmul dot_S200x10000_S10000x64_S200x64_1_0_0_1_n_n none x0 x1 (constant (F := Ideal) S200x64 .f32 0x00000000#32) (ix2 p cc))
      + (Ideal.ofBits .f32 0x3E800000#32) * xr (ix2 p cc) = _
  rw [tile_product]
  rfl

/-- Second layer: `slab · … + q · rows`, the table read from the first slab of the scratch. -/
theorem pay2_apply (x0 : Vec Ideal S200x10000 .f32) (s : Vec Ideal S1x10000x64 .f32) (xr : Vec Ideal S200x64 .f32)
    (u : Fin 1) (p : Fin 200) (cc : Fin 64) :
    k0_pay2 (F := Ideal) x0 s xr (ix3 u p cc)
      = (∑ k : Fin 10000, (x0 (ix2 p k) : EReal) * (s (ix3 (0 : Fin 1) k cc) : EReal)) + Cert.Horner.q * (xr (ix2 p cc) : EReal) := by
  unfold k0_pay2
  refine (shapeCast_ab_1ab_apply _ _ u p cc).trans ?_
  rw [shapeCast_self]
  show (matmul dot_S200x10000_S10000x64_S200x64_1_0_0_1_n_n none x0 (shapeCast S10000x64 s shapeCasts_S1x10000x64_S10000x64) (constant (F := Ideal) S200x64 .f32 0x00000000#32) (ix2 p cc))
      + (Ideal.ofBits .f32 0x3E800000#32) * xr (ix2 p cc) = _
  rw [tile_product]
  refine congrArg₂ (· + ·) (Finset.sum_congr rfl fun k _ => ?_) rfl
  rw [shapeCast_1ab_ab_apply]

/-- Third layer, user rows: the same form, the table read from the second slab of the scratch. -/
theorem pay3_apply (x0 : Vec Ideal S200x10000 .f32) (s : Vec Ideal S1x10000x64 .f32) (xr : Vec Ideal S200x64 .f32)
    (p : Fin 200) (cc : Fin 64) :
    k0_pay3 (F := Ideal) x0 s xr (ix2 p cc)
      = (∑ k : Fin 10000, (x0 (ix2 p k) : EReal) * (s (ix3 (0 : Fin 1) k cc) : EReal)) + Cert.Horner.q * (xr (ix2 p cc) : EReal) := by
  unfold k0_pay3
  rw [shapeCast_self]
  show (matmul dot_S200x10000_S10000x64_S200x64_1_0_0_1_n_n none x0 (shapeCast S10000x64 s shapeCasts_S1x10000x64_S10000x64) (constant (F := Ideal) S200x64 .f32 0x00000000#32) (ix2 p cc))
      + (Ideal.ofBits .f32 0x3E800000#32) * xr (ix2 p cc) = _
  rw [tile_product]
  refine congrArg₂ (· + ·) (Finset.sum_congr rfl fun k _ => ?_) rfl
  rw [shapeCast_1ab_ab_apply]

/-- Third layer, item rows: the same value. -/
theorem pay4_apply (x0 : Vec Ideal S200x10000 .f32) (s : Vec Ideal S1x10000x64 .f32) (xr : Vec Ideal S200x64 .f32)
    (p : Fin 200) (cc : Fin 64) :
    k0_pay4 (F := Ideal) x0 s xr (ix2 p cc)
      = (∑ k : Fin 10000, (x0 (ix2 p k) : EReal) * (s (ix3 (0 : Fin 1) k cc) : EReal)) + Cert.Horner.q * (xr (ix2 p cc) : EReal) := by
  unfold k0_pay4
  rw [shapeCast_self]
  show (matmul dot_S200x10000_S10000x64_S200x64_1_0_0_1_n_n none x0 (shapeCast S10000x64 s shapeCasts_S1x10000x64_S10000x64) (constant (F := Ideal) S200x64 .f32 0x00000000#32) (ix2 p cc))
      + (Ideal.ofBits .f32 0x3E800000#32) * xr (ix2 p cc) = _
  rw [tile_product]
  refine congrArg₂ (· + ·) (Finset.sum_congr rfl fun k _ => ?_) rfl
  rw [shapeCast_1ab_ab_apply]

end Cert.KernelIdeal.Payload

end
-- ==== Proof.HornerScratch.lean ====
/-
  The scratch table between grid points, as a property of its contents.

  The scratch holds two 10000 × 64 slabs. The first layer's points fill the first slab 200 rows at a time with the
  first Horner layer `r1`; the second layer's points fill the second slab with `r2`, reading the first slab whole; the
  third layer only reads. After `n` points (50 per layer), rows below `200 n` of the first slab hold `r1`, and rows
  `r` with `10000 + r < 200 n` of the second slab hold `r2`. A store of 200 rows is an update of a slice.
-/
import proofs.«137725_g6708738916894_cont_9to1_m_1122_6_alg».proof.Proof.Horner
import Idealize.ShloMosaic.PureOps
import Idealize.ShloMosaic.Lib.ValueIdx

noncomputable section

namespace Cert.Horner

open Idealize.ShloMosaic Idealize.ShloMosaic.ValueIdx

/-- A row number as a row of the table (a number below 10000 is itself). -/
def rowOf (n : ℕ) : Fin 10000 := ⟨n % 10000, Nat.mod_lt _ (by decide)⟩

theorem rowOf_val {n : ℕ} (h : n < 10000) : (rowOf n).val = n := Nat.mod_eq_of_lt h
theorem rowOf_fin (r : Fin 10000) : rowOf r.val = r := Fin.ext (Nat.mod_eq_of_lt r.isLt)

/-- The scratch: two slabs of the table's shape. -/
abbrev Scr : Type := (⟨3, ![2, 10000, 64]⟩ : Shape).Idx → EReal

/-- What the scratch holds after `n` grid points. -/
def Inv (A : Mat) (X : Tab) (n : ℕ) (g : Scr) : Prop :=
  (∀ (r : Fin 10000) (cc : Fin 64), r.val < 200 * n → g (ix3 (0 : Fin 2) r cc) = r1 A X (ix2 r cc)) ∧
  (∀ (r : Fin 10000) (cc : Fin 64), 10000 + r.val < 200 * n → g (ix3 (1 : Fin 2) r cc) = r2 A X (ix2 r cc))

theorem inv_zero (A : Mat) (X : Tab) (g : Scr) : Inv A X 0 g :=
  ⟨fun r cc h => absurd h (by omega), fun r cc h => absurd h (by omega)⟩

/-- Once both slabs are full a point that stores nothing keeps the property. -/
theorem inv_succ_of_full (A : Mat) (X : Tab) (g : Scr) {n : ℕ} (hn : 100 ≤ n) (h : Inv A X n g) : Inv A X (n + 1) g :=
  ⟨fun r cc _ => h.1 r cc (by have := r.isLt; omega), fun r cc _ => h.2 r cc (by have := r.isLt; omega)⟩

/-- The first slab is full from point 50 on. -/
theorem inv_first_full (A : Mat) (X : Tab) (g : Scr) {n : ℕ} (hn : 50 ≤ n) (h : Inv A X n g) (r : Fin 10000) (cc : Fin 64) :
    g (ix3 (0 : Fin 2) r cc) = r1 A X (ix2 r cc) := h.1 r cc (by have := r.isLt; omega)
/-- The second slab is full from point 100 on. -/
theorem inv_second_full (A : Mat) (X : Tab) (g : Scr) {n : ℕ} (hn : 100 ≤ n) (h : Inv A X n g) (r : Fin 10000) (cc : Fin 64) :
    g (ix3 (1 : Fin 2) r cc) = r2 A X (ix2 r cc) := h.2 r cc (by have := r.isLt; omega)

/-- An update of 200 rows of slab `s0` starting at row `row0`, read at an index. -/
theorem updateRows_apply (g : Scr) (w : (⟨3, ![1, 200, 64]⟩ : Shape).Idx → EReal) (s0 : Fin 2) (row0 : ℕ) (hrow : row0 + 200 ≤ 10000)
    (off : Fin 3 → ℕ) (hoff : off = ![s0.val, row0, 0])
    (hs : (⟨3, ![2, 10000, 64]⟩ : Shape).Slices off ⟨3, ![1, 200, 64]⟩) (a : Fin 2) (r : Fin 10000) (cc : Fin 64) :
    updateSlice g w off hs (ix3 a r cc)
      = if h : a = s0 ∧ row0 ≤ r.val ∧ r.val < row0 + 200 then w (ix3 (0 : Fin 1) ⟨r.val - row0, by omega⟩ cc) else g (ix3 a r cc) := by
  subst hoff
  unfold updateSlice
  dsimp only
  by_cases h : a = s0 ∧ row0 ≤ r.val ∧ r.val < row0 + 200
  · rw [dif_pos h]
    split
    · refine congrArg w (funext fun b => Fin.ext ?_)
      match b with
      | ⟨0, _⟩ => show a.val - s0.val = 0; rw [h.1]; omega
      | ⟨1, _⟩ => rfl
      | ⟨2, _⟩ => show cc.val - 0 = cc.val; omega
    · next hout =>
      refine absurd (fun b => ?_) hout
      match b with
      | ⟨0, _⟩ => show s0.val ≤ a.val ∧ a.val < s0.val + 1; rw [h.1]; omega
      | ⟨1, _⟩ => show row0 ≤ r.val ∧ r.val < row0 + 200; exact ⟨h.2.1, h.2.2⟩
      | ⟨2, _⟩ => show 0 ≤ cc.val ∧ cc.val < 0 + 64; have := cc.isLt; omega
  · rw [dif_neg h]
    split
    · next hin =>
      exfalso
      apply h
      have h0 : s0.val ≤ a.val ∧ a.val < s0.val + 1 := hin (0 : Fin 3)
      have h1 : row0 ≤ r.val ∧ r.val < row0 + 200 := hin (1 : Fin 3)
      exact ⟨Fin.ext (by omega), h1.1, h1.2⟩
    · rfl

/-- A first-layer point: its 200 rows of the first slab written with `r1`. -/
theorem inv_write_first (A : Mat) (X : Tab) (g : Scr) (n : ℕ) (hn : n < 50) (w : (⟨3, ![1, 200, 64]⟩ : Shape).Idx → EReal)
    (hw : ∀ (p : Fin 200) (cc : Fin 64), w (ix3 (0 : Fin 1) p cc) = r1 A X (ix2 (rowOf (200 * n + p.val)) cc))
    (off : Fin 3 → ℕ) (hoff : off = ![0, 200 * n, 0])
    (hs : (⟨3, ![2, 10000, 64]⟩ : Shape).Slices off ⟨3, ![1, 200, 64]⟩)
    (h : Inv A X n g) : Inv A X (n + 1) (updateSlice g w off hs) := by
  constructor
  · intro r cc hr
    rw [updateRows_apply g w (0 : Fin 2) (200 * n) (by omega) off hoff hs]
    by_cases hin : 200 * n ≤ r.val
    · rw [dif_pos ⟨rfl, hin, by omega⟩, hw]
      refine congrArg (fun z => r1 A X (ix2 z cc)) (Fin.ext ?_)
      rw [rowOf_val (by have := r.isLt; omega)]; show 200 * n + (r.val - 200 * n) = r.val; omega
    · rw [dif_neg (fun hh => hin hh.2.1)]
      exact h.1 r cc (by omega)
  · intro r cc hr
    exact absurd hr (by omega)

/-- A second-layer point: its 200 rows of the second slab written with `r2`; the first slab untouched. -/
theorem inv_write_second (A : Mat) (X : Tab) (g : Scr) (n : ℕ) (hn0 : 50 ≤ n) (hn : n < 100) (w : (⟨3, ![1, 200, 64]⟩ : Shape).Idx → EReal)
    (hw : ∀ (p : Fin 200) (cc : Fin 64), w (ix3 (0 : Fin 1) p cc) = r2 A X (ix2 (rowOf (200 * (n - 50) + p.val)) cc))
    (off : Fin 3 → ℕ) (hoff : off = ![1, 200 * (n - 50), 0])
    (hs : (⟨3, ![2, 10000, 64]⟩ : Shape).Slices off ⟨3, ![1, 200, 64]⟩)
    (h : Inv A X n g) : Inv A X (n + 1) (updateSlice g w off hs) := by
  constructor
  · intro r cc hr
    rw [updateRows_apply g w (1 : Fin 2) (200 * (n - 50)) (by omega) off hoff hs]
    rw [dif_neg (fun hh => absurd hh.1 (by decide))]
    exact h.1 r cc (by have := r.isLt; omega)
  · intro r cc hr
    rw [updateRows_apply g w (1 : Fin 2) (200 * (n - 50)) (by omega) off hoff hs]
    by_cases hin : 200 * (n - 50) ≤ r.val
    · rw [dif_pos ⟨rfl, hin, by omega⟩, hw]
      refine congrArg (fun z => r2 A X (ix2 z cc)) (Fin.ext ?_)
      rw [rowOf_val (by have := r.isLt; omega)]; show 200 * (n - 50) + (r.val - 200 * (n - 50)) = r.val; omega
    · rw [dif_neg (fun hh => hin hh.2.1)]
      exact h.2 r cc (by omega)

end Cert.Horner

end
-- ==== Proof.IdealData.lean ====
import proofs.«137725_g6708738916894_cont_9to1_m_1122_6_alg».proof.Proof.Gen.KernelIdeal.Frame
import proofs.«137725_g6708738916894_cont_9to1_m_1122_6_alg».proof.Proof.Gen.KernelIdeal.Skeleton
import proofs.«137725_g6708738916894_cont_9to1_m_1122_6_alg».proof.Proof.IdealCases
import proofs.«137725_g6708738916894_cont_9to1_m_1122_6_alg».proof.Proof.IdealPoints
import proofs.«137725_g6708738916894_cont_9to1_m_1122_6_alg».proof.Proof.IdealPieces
import proofs.«137725_g6708738916894_cont_9to1_m_1122_6_alg».proof.Proof.IdealPayload
import proofs.«137725_g6708738916894_cont_9to1_m_1122_6_alg».proof.Proof.HornerScratch
import Idealize.ShloMosaic.Lib.Pipeline.Value
import Idealize.ShloMosaic.Lib.Pipeline.TableIdle
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Horner

/-! The idealized kernel's run, with values. Between grid points the scratch holds the Horner layers computed so far
    (`Cert.Horner.Inv`); the third layer's points leave blocks of the result table `r3` in the output windows. -/

variable (m : (ℓ : Loc nD τ sig) → Buf (Elt Ideal) ℓ) (ρ : Dev nD → PrngReg)

/-- The propagation matrix as the region finds it. -/
def matA (c : Dev nD) : Mat := V m c main_arg2
/-- The stacked embedding table as the region finds it. -/
def tabX (c : Dev nD) : Tab := V m c main_v0

/-- The user output's block at point `t`: 200 rows of `r3` from row `200 (min t 129 − 100)`. -/
def out2 (c : Dev nD) (t : Fin cfg0.N) : Vec Ideal S200x64 .f32 := fun y =>
  r3 (matA m c) (tabX m c) (ix2 (rowOf (200 * (min t.val 129 - 100) + (y 0).val)) (⟨(y 1).val, idx2_lt1 y⟩ : Fin 64))
/-- The item output's block at point `t`: 200 rows of `r3` from row `6000 + 200 (t − 130)`. -/
def out3 (c : Dev nD) (t : Fin cfg0.N) : Vec Ideal S200x64 .f32 := fun y =>
  r3 (matA m c) (tabX m c) (ix2 (rowOf (6000 + 200 * (t.val - 130) + (y 0).val)) (⟨(y 1).val, idx2_lt1 y⟩ : Fin 64))

theorem out2_congr (c : Dev nD) (t t' : Fin cfg0.N) (h : min t.val 129 = min t'.val 129) : out2 m c t = out2 m c t' := by
  unfold out2; rw [h]

/-- What is carried between points: the scratch at contents with the property of point `n`, and the generator register. -/
def Phi (c : Dev nD) (n : ℕ) : sProp 𝕄 :=
  iprop((∃ g : Vec Ideal S2x10000x64 .f32, ⌜Inv (matA m c) (tabX m c) n g⌝ ∗ owns (c : Thread nD τ) (Memref.whole cc0_scratch0) fullShare g) ∗ ∃ r, prngReg c r)

/-- The proof data: the arrays as the region finds them; the inputs' buffers at their blocks, the outputs' at blocks of the
    result table; the scratch tracked point by point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 m c t
    | ⟨3, _⟩ => out3 m c t
  Φ n := Phi m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 m c t := by dsimp only [dats]
theorem after0_3 (c : Dev nD) (t : Fin cfg0.N) : (dats m 0 c).after 3 t = out3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Body

end
-- ==== Proof.IdealBlocks.lean ====
import proofs.«137725_g6708738916894_cont_9to1_m_1122_6_alg».proof.Proof.Gen.KernelIdeal.Frame
import proofs.«137725_g6708738916894_cont_9to1_m_1122_6_alg».proof.Proof.Gen.KernelIdeal.Skeleton
import proofs.«137725_g6708738916894_cont_9to1_m_1122_6_alg».proof.Proof.IdealData
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Horner

/-! The blocks the body loads at point `t`, read at an index, and the values it stores there as entries of the Horner
    layers. Point `t` works on rows `200 (t % 50) … 200 (t % 50) + 199`: the matrix window's block is those rows of the
    matrix, the table window's block is the whole table, and the row access of the table reads those rows. -/

variable (m : (ℓ : Loc nD τ sig) → Buf (Elt Ideal) ℓ)

/-- The matrix window's block: rows `200 (t % 50) + p` of the matrix. -/
theorem blockA (c : Dev nD) (t : Fin cfg0.N) (p : Fin 200) (k : Fin 10000) :
    iblk m c 0 t (ix2 p k) = matA m c (ix2 (rowOf (200 * (t.val % 50) + p.val)) k) := by
  have hN := hN t
  have e0 : win0_0.index t (0 : Fin 2) = t.val % 50 := congrFun (idx0_eq t) 0
  have e1 : win0_0.index t (1 : Fin 2) = 0 := congrFun (idx0_eq t) 1
  show V m c main_arg2 (((cfg0.win 0).blk t).view.emb (ix2 p k)) = V m c main_arg2 _
  refine congrArg (V m c main_arg2) (funext fun a => Fin.ext ?_)
  match a with
  | ⟨0, _⟩ =>
    show win0_0.index t (0 : Fin 2) * 200 + 1 * p.val = (rowOf (200 * (t.val % 50) + p.val)).val
    rw [rowOf_val (by have := p.isLt; omega), e0]; omega
  | ⟨1, _⟩ =>
    show win0_0.index t (1 : Fin 2) * 10000 + 1 * k.val = k.val
    rw [e1]; omega

/-- The table window's block: the whole table. -/
theorem blockX (c : Dev nD) (t : Fin cfg0.N) (y : S10000x64.Idx) : iblk m c 1 t y = tabX m c y := by
  have e0 : win0_1.index t (0 : Fin 2) = 0 := congrFun (idx1_eq t) 0
  have e1 : win0_1.index t (1 : Fin 2) = 0 := congrFun (idx1_eq t) 1
  show V m c main_v0 (((cfg0.win 1).blk t).view.emb y) = V m c main_v0 y
  refine congrArg (V m c main_v0) (funext fun a => Fin.ext ?_)
  match a with
  | ⟨0, _⟩ => show win0_1.index t (0 : Fin 2) * 10000 + 1 * (y 0).val = (y 0).val; rw [e0]; omega
  | ⟨1, _⟩ => show win0_1.index t (1 : Fin 2) * 64 + 1 * (y 1).val = (y 1).val; rw [e1]; omega

/-- The row access of the table at point `t`: rows `200 (t % 50) + p` of the table. -/
theorem rowsX (c : Dev nD) (t : Fin cfg0.N) (off : Fin 2 → ℕ) (hoff : off = ![200 * (t.val % 50), 0])
    (inb : ∀ a, off a + S200x64.size a ≤ S10000x64.size a) (p : Fin 200) (cc : Fin 64) :
    View.ld (iblk m c 1 t) (Rect.unit (s := S10000x64) off S200x64.size inb) (ix2 p cc)
      = tabX m c (ix2 (rowOf (200 * (t.val % 50) + p.val)) cc) := by
  have hN := hN t
  subst hoff
  show iblk m c 1 t ((Rect.unit (s := S10000x64) ![200 * (t.val % 50), 0] S200x64.size inb).emb (ix2 p cc)) = _
  rw [blockX]
  refine congrArg (tabX m c) (funext fun a => Fin.ext ?_)
  match a with
  | ⟨0, _⟩ =>
    show 200 * (t.val % 50) + 1 * p.val = (rowOf (200 * (t.val % 50) + p.val)).val
    rw [rowOf_val (by have := p.isLt; omega)]; omega
  | ⟨1, _⟩ => show 0 + 1 * cc.val = cc.val; omega

/-- A whole slab of the scratch, read at an index. -/
theorem slab_read (g : Vec Ideal S2x10000x64 .f32) (s0 : Fin 2) (off : Fin 3 → ℕ) (hoff : off = ![s0.val, 0, 0])
    (inb : ∀ a, off a + S1x10000x64.size a ≤ S2x10000x64.size a) (k : Fin 10000) (cc : Fin 64) :
    View.ld g (Rect.unit (s := S2x10000x64) off S1x10000x64.size inb) (ix3 (0 : Fin 1) k cc) = g (ix3 s0 k cc) := by
  subst hoff
  show g ((Rect.unit (s := S2x10000x64) ![s0.val, 0, 0] S1x10000x64.size inb).emb (ix3 (0 : Fin 1) k cc)) = _
  refine congrArg g (funext fun a => Fin.ext ?_)
  match a with
  | ⟨0, _⟩ => show s0.val + 1 * 0 = s0.val; omega
  | ⟨1, _⟩ => show 0 + 1 * k.val = k.val; omega
  | ⟨2, _⟩ => show 0 + 1 * cc.val = cc.val; omega

/-- First layer's stored value: rows of `r1`. -/
theorem stored_first (c : Dev nD) (t : Fin cfg0.N) (ht : t.val < 50) (off : Fin 2 → ℕ) (hoff : off = ![200 * (t.val % 50), 0])
    (inb : ∀ a, off a + S200x64.size a ≤ S10000x64.size a) (p : Fin 200) (cc : Fin 64) :
    k0_pay1 (F := Ideal) (iblk m c 0 t) (iblk m c 1 t) (View.ld (iblk m c 1 t) (Rect.unit (s := S10000x64) off S200x64.size inb)) (ix3 (0 : Fin 1) p cc)
      = r1 (matA m c) (tabX m c) (ix2 (rowOf (200 * t.val + p.val)) cc) := by
  rw [Cert.KernelIdeal.Payload.pay1_apply, rowsX m c t off hoff inb]
  have e : t.val % 50 = t.val := Nat.mod_eq_of_lt ht
  rw [e]
  unfold r1 step
  refine congrArg₂ (· + ·) (congrArg (q * ·) (Finset.sum_congr rfl fun k _ => ?_)) rfl
  rw [blockA, blockX, e]

/-- Second layer's stored value: rows of `r2`, once the first slab holds `r1`. -/
theorem stored_second (c : Dev nD) (t : Fin cfg0.N) (ht0 : 50 ≤ t.val) (ht : t.val < 100) (g : Vec Ideal S2x10000x64 .f32)
    (hg : ∀ (k : Fin 10000) (cc : Fin 64), g (ix3 (0 : Fin 2) k cc) = r1 (matA m c) (tabX m c) (ix2 k cc))
    (off : Fin 2 → ℕ) (hoff : off = ![200 * (t.val % 50), 0]) (inb : ∀ a, off a + S200x64.size a ≤ S10000x64.size a)
    (inb0 : ∀ a, (![0, 0, 0] : Fin 3 → ℕ) a + S1x10000x64.size a ≤ S2x10000x64.size a) (p : Fin 200) (cc : Fin 64) :
    k0_pay2 (F := Ideal) (iblk m c 0 t) (View.ld g (Rect.unit (s := S2x10000x64) ![0, 0, 0] S1x10000x64.size inb0))
        (View.ld (iblk m c 1 t) (Rect.unit (s := S10000x64) off S200x64.size inb)) (ix3 (0 : Fin 1) p cc)
      = r2 (matA m c) (tabX m c) (ix2 (rowOf (200 * (t.val - 50) + p.val)) cc) := by
  rw [Cert.KernelIdeal.Payload.pay2_apply, rowsX m c t off hoff inb]
  have e : t.val % 50 = t.val - 50 := by omega
  rw [e]
  unfold r2 step
  refine congrArg₂ (· + ·) (Finset.sum_congr rfl fun k _ => ?_) rfl
  have h1 : iblk m c 0 t (ix2 p k) = matA m c (ix2 (rowOf (200 * (t.val - 50) + p.val)) k) := by rw [blockA, e]
  have h2 : View.ld g (Rect.unit (s := S2x10000x64) ![0, 0, 0] S1x10000x64.size inb0) (ix3 (0 : Fin 1) k cc)
      = r1 (matA m c) (tabX m c) (ix2 k cc) := (slab_read g (0 : Fin 2) _ rfl inb0 k cc).trans (hg k cc)
  exact congrArg₂ (· * ·) h1 h2

/-- Third layer's stored value on the user rows: rows of `r3`, once the second slab holds `r2`. -/
theorem stored_third (c : Dev nD) (t : Fin cfg0.N) (g : Vec Ideal S2x10000x64 .f32)
    (hg : ∀ (k : Fin 10000) (cc : Fin 64), g (ix3 (1 : Fin 2) k cc) = r2 (matA m c) (tabX m c) (ix2 k cc))
    (off : Fin 2 → ℕ) (hoff : off = ![200 * (t.val % 50), 0]) (inb : ∀ a, off a + S200x64.size a ≤ S10000x64.size a)
    (inb1 : ∀ a, (![1, 0, 0] : Fin 3 → ℕ) a + S1x10000x64.size a ≤ S2x10000x64.size a) (p : Fin 200) (cc : Fin 64) :
    k0_pay3 (F := Ideal) (iblk m c 0 t) (View.ld g (Rect.unit (s := S2x10000x64) ![1, 0, 0] S1x10000x64.size inb1))
        (View.ld (iblk m c 1 t) (Rect.unit (s := S10000x64) off S200x64.size inb)) (ix2 p cc)
      = r3 (matA m c) (tabX m c) (ix2 (rowOf (200 * (t.val % 50) + p.val)) cc) := by
  rw [Cert.KernelIdeal.Payload.pay3_apply, rowsX m c t off hoff inb]
  unfold r3 step
  refine congrArg₂ (· + ·) (Finset.sum_congr rfl fun k _ => ?_) rfl
  have h1 : iblk m c 0 t (ix2 p k) = matA m c (ix2 (rowOf (200 * (t.val % 50) + p.val)) k) := blockA m c t p k
  have h2 : View.ld g (Rect.unit (s := S2x10000x64) ![1, 0, 0] S1x10000x64.size inb1) (ix3 (0 : Fin 1) k cc)
      = r2 (matA m c) (tabX m c) (ix2 k cc) := (slab_read g (1 : Fin 2) _ rfl inb1 k cc).trans (hg k cc)
  exact congrArg₂ (· * ·) h1 h2

/-- Third layer's stored value on the item rows: the same rows of `r3`. -/
theorem stored_fourth (c : Dev nD) (t : Fin cfg0.N) (g : Vec Ideal S2x10000x64 .f32)
    (hg : ∀ (k : Fin 10000) (cc : Fin 64), g (ix3 (1 : Fin 2) k cc) = r2 (matA m c) (tabX m c) (ix2 k cc))
    (off : Fin 2 → ℕ) (hoff : off = ![200 * (t.val % 50), 0]) (inb : ∀ a, off a + S200x64.size a ≤ S10000x64.size a)
    (inb1 : ∀ a, (![1, 0, 0] : Fin 3 → ℕ) a + S1x10000x64.size a ≤ S2x10000x64.size a) (p : Fin 200) (cc : Fin 64) :
    k0_pay4 (F := Ideal) (iblk m c 0 t) (View.ld g (Rect.unit (s := S2x10000x64) ![1, 0, 0] S1x10000x64.size inb1))
        (View.ld (iblk m c 1 t) (Rect.unit (s := S10000x64) off S200x64.size inb)) (ix2 p cc)
      = r3 (matA m c) (tabX m c) (ix2 (rowOf (200 * (t.val % 50) + p.val)) cc) := by
  rw [Cert.KernelIdeal.Payload.pay4_apply, rowsX m c t off hoff inb]
  unfold r3 step
  refine congrArg₂ (· + ·) (Finset.sum_congr rfl fun k _ => ?_) rfl
  have h1 : iblk m c 0 t (ix2 p k) = matA m c (ix2 (rowOf (200 * (t.val % 50) + p.val)) k) := blockA m c t p k
  have h2 : View.ld g (Rect.unit (s := S2x10000x64) ![1, 0, 0] S1x10000x64.size inb1) (ix3 (0 : Fin 1) k cc)
      = r2 (matA m c) (tabX m c) (ix2 k cc) := (slab_read g (1 : Fin 2) _ rfl inb1 k cc).trans (hg k cc)
  exact congrArg₂ (· * ·) h1 h2

end Cert.KernelIdeal.Body

end
-- ==== Proof.IdealBody.lean ====
import proofs.«137725_g6708738916894_cont_9to1_m_1122_6_alg».proof.Proof.Gen.KernelIdeal.Frame
import proofs.«137725_g6708738916894_cont_9to1_m_1122_6_alg».proof.Proof.Gen.KernelIdeal.Skeleton
import proofs.«137725_g6708738916894_cont_9to1_m_1122_6_alg».proof.Proof.IdealBlocks
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Horner

/-! The body obligation of the idealized kernel with values: at each grid point the case's stores take the scratch from the
    property of point `t` to that of point `t + 1`, and the third layer's points leave blocks of the result table in the
    output windows. -/

variable (m : (ℓ : Loc nD τ sig) → Buf (Elt Ideal) ℓ) (ρ : Dev nD → PrngReg)

/-- The scratch, as the body is called with it. -/
abbrev scr : Memref sig .tc .vmem S2x10000x64 .f32 := Memref.whole cc0_scratch0

theorem Phi_cast (c : Dev nD) (t : Fin cfg0.N) : (dats m 0 c).Φ t.castSucc = Phi m c t.val := rfl
theorem Phi_succ (c : Dev nD) (t : Fin cfg0.N) : (dats m 0 c).Φ t.succ = Phi m c (t.val + 1) := rfl

/-- A store of 200 rows into the scratch held whole is an update of a slice of its contents. -/
theorem whole_write (g : Vec Ideal S2x10000x64 .f32) (off : Fin 3 → ℕ) (inb : ∀ a, off a + S1x200x64.size a ≤ S2x10000x64.size a)
    (w : (Rect.unit (s := S2x10000x64) off S1x200x64.size inb).shape.Idx → Elt Ideal .f32) :
    scr.view.read (Elt Ideal) (scr.view.writes (Elt Ideal) ((Memref.isWhole_whole cc0_scratch0).unread g)
        [⟨Rect.unit (s := S2x10000x64) off S1x200x64.size inb, w⟩])
      = updateSlice g w off ⟨rfl, inb⟩ := by
  have e : (Memref.isWhole_whole cc0_scratch0).unread g = g := (Memref.isWhole_whole cc0_scratch0).unread_read g
  rw [e]
  exact View.write_whole_slice_unit cc0_scratch0 off S1x200x64.size inb g w

/-! ## Where the output windows are idle -/

theorem live0 (t : Fin cfg0.N) : cfg0.idle 0 (grid0.coords t) = false := rfl
theorem live1 (t : Fin cfg0.N) : cfg0.idle 1 (grid0.coords t) = false := rfl
theorem idle2_of_not (t : Fin cfg0.N) (h : ¬ k0_cond3 (grid0.coords t) = 1#1) : cfg0.idle 2 (grid0.coords t) = true := by
  show (!(k0_cond3 (grid0.coords t) == 1#1)) = true
  rw [Bool.not_eq_true', beq_eq_false_iff_ne]; exact h
theorem live2_of (t : Fin cfg0.N) (h : k0_cond3 (grid0.coords t) = 1#1) : cfg0.idle 2 (grid0.coords t) = false := by
  show (!(k0_cond3 (grid0.coords t) == 1#1)) = false
  rw [h]; rfl
theorem idle3_of_not (t : Fin cfg0.N) (h : ¬ k0_cond4 (grid0.coords t) = 1#1) : cfg0.idle 3 (grid0.coords t) = true := by
  show (!(k0_cond4 (grid0.coords t) == 1#1)) = true
  rw [Bool.not_eq_true', beq_eq_false_iff_ne]; exact h
theorem live3_of (t : Fin cfg0.N) (h : k0_cond4 (grid0.coords t) = 1#1) : cfg0.idle 3 (grid0.coords t) = false := by
  show (!(k0_cond4 (grid0.coords t) == 1#1)) = false
  rw [h]; rfl

/-! ## What the body leaves, window by window -/

theorem leaves0 (c : Dev nD) (t : Fin cfg0.N) :
    (dats m 0 c).leavesExact 0 t = owns (c : Thread nD τ) (st0_0 t) fullShare (iblk m c 0 t) := by
  unfold Dat.leavesExact; rw [live0 t, after0_0]
theorem leaves1 (c : Dev nD) (t : Fin cfg0.N) :
    (dats m 0 c).leavesExact 1 t = owns (c : Thread nD τ) (st0_1 t) fullShare (iblk m c 1 t) := by
  unfold Dat.leavesExact; rw [live1 t, after0_1]
theorem leaves2_live (c : Dev nD) (t : Fin cfg0.N) (h : k0_cond3 (grid0.coords t) = 1#1) :
    (dats m 0 c).leavesExact 2 t = owns (c : Thread nD τ) (st0_2 t) fullShare (out2 m c t) := by
  unfold Dat.leavesExact; rw [live2_of t h, after0_2]
theorem leaves3_live (c : Dev nD) (t : Fin cfg0.N) (h : k0_cond4 (grid0.coords t) = 1#1) :
    (dats m 0 c).leavesExact 3 t = owns (c : Thread nD τ) (st0_3 t) fullShare (out3 m c t) := by
  unfold Dat.leavesExact; rw [live3_of t h, after0_3]
theorem leaves2_idle (c : Dev nD) (t : Fin cfg0.N) (h : ¬ k0_cond3 (grid0.coords t) = 1#1) (hf : (cfg0.win 2).flush t = false) :
    (dats m 0 c).leavesExact 2 t = iprop(∃ d, owns (c : Thread nD τ) (st0_2 t) fullShare ((dats m 0 c).before 2 t d)) :=
  (dats m 0 c).leavesExact_idle 2 t (idle2_of_not t h) hf
theorem leaves3_idle (c : Dev nD) (t : Fin cfg0.N) (h : ¬ k0_cond4 (grid0.coords t) = 1#1) (hf : (cfg0.win 3).flush t = false) :
    (dats m 0 c).leavesExact 3 t = iprop(∃ d, owns (c : Thread nD τ) (st0_3 t) fullShare ((dats m 0 c).before 3 t d)) :=
  (dats m 0 c).leavesExact_idle 3 t (idle3_of_not t h) hf
theorem leaves2_last (c : Dev nD) (t : Fin cfg0.N) (h : ¬ k0_cond3 (grid0.coords t) = 1#1) (hf : (cfg0.win 2).flush t = true) :
    (dats m 0 c).leavesExact 2 t = owns (c : Thread nD τ) (st0_2 t) fullShare (out2 m c t) := by
  unfold Dat.leavesExact; rw [idle2_of_not t h, hf, after0_2]

theorem flush2_false (t : Fin cfg0.N) (h : ¬ ((100 ≤ t.val ∧ t.val < 129) ∨ t.val = 149)) : (cfg0.win 2).flush t = false :=
  Bool.eq_false_iff.mpr fun hh => h ((flush2_iff t).mp hh)
theorem flush3_false (t : Fin cfg0.N) (h : ¬ 130 ≤ t.val) : (cfg0.win 3).flush t = false :=
  Bool.eq_false_iff.mpr fun hh => h ((flush3_iff t).mp hh)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-! ### The first layer's points -/

set_option maxHeartbeats 1000000 in
theorem sound_first (c : Dev nD) (t : Fin cfg0.N) (ht : t.val < 50) :
    bodyPre m c t ⊢ wp frame (wpE (defs₀ (F := Ideal)) Variants.none c none) Set.univ (bodyAt0 t) (fun _ => bodyPost m c t) := by
  have hN := hN t
  have hc1 : k0_cond1 (grid0.coords t) = 1#1 := (hcond1 t).mpr ht
  have hc2 : ¬ k0_cond2 (grid0.coords t) = 1#1 := fun h => by have := (hcond2 t).mp h; omega
  have hc3 : ¬ k0_cond3 (grid0.coords t) = 1#1 := fun h => by have := (hcond3 t).mp h; omega
  have hc4 : ¬ k0_cond4 (grid0.coords t) = 1#1 := fun h => by have := (hcond4 t).mp h; omega
  have e2 : k0_off2 (grid0.coords t) = ![0, 200 * t.val, 0] := by rw [off2_eq t, Nat.mod_eq_of_lt ht]
  unfold bodyPre bodyPost bodyAt0
  simp only [before0_0 m c, before0_1 m c]
  rw [show (dats m 0 c).owesAt () t.succ = (dats m 0 c).owesAt () t.castSucc from rfl, Phi_cast, Phi_succ,
    leaves0, leaves1, leaves2_idle m c t hc3 (flush2_false t (by omega)), leaves3_idle m c t hc4 (flush3_false t (by omega))]
  unfold Phi
  iintro ⟨⟨⟨%g, %hinv, Hs⟩, Hr⟩, Ho, ⟨%d0, H0⟩, ⟨%d1, H1⟩, H2, H3⟩
  iapply ((runL0 c (grid0.coords t) _ _ _ _ _ _ _ _ scr (Memref.isWhole_whole _) hc1 hc2 hc3 hc4 (iblk m c 0 t) (iblk m c 1 t) g).2 Set.univ _)
  isplitl [H0]; · iexact H0
  isplitl [H1]; · iexact H1
  isplitl [Hs]; · iexact Hs
  iintro ⟨H0, H1, Hs⟩
  isplitl [Hs Hr]
  · isplitl [Hs]
    · iexists _
      isplitr
      swap
      · iapply (owns_intro (c : Thread nD τ) scr fullShare _); iexact Hs
      ipureintro
      rw [runL0_pieces, whole_write]
      exact inv_write_first (matA m c) (tabX m c) g t.val ht _
        (fun p cc => stored_first m c t ht _ (off1_eq t) _ p cc) _ e2 _ hinv
    · iexact Hr
  isplitl [Ho]; · iexact Ho
  isplitl [H0]; · iexact H0
  isplitl [H1]; · iexact H1
  isplitl [H2]; · iexact H2
  iexact H3

/-! ### The second layer's points -/

set_option maxHeartbeats 1000000 in
theorem sound_second (c : Dev nD) (t : Fin cfg0.N) (ht0 : 50 ≤ t.val) (ht : t.val < 100) :
    bodyPre m c t ⊢ wp frame (wpE (defs₀ (F := Ideal)) Variants.none c none) Set.univ (bodyAt0 t) (fun _ => bodyPost m c t) := by
  have hN := hN t
  have hc1 : ¬ k0_cond1 (grid0.coords t) = 1#1 := fun h => by have := (hcond1 t).mp h; omega
  have hc2 : k0_cond2 (grid0.coords t) = 1#1 := (hcond2 t).mpr ⟨ht0, ht⟩
  have hc3 : ¬ k0_cond3 (grid0.coords t) = 1#1 := fun h => by have := (hcond3 t).mp h; omega
  have hc4 : ¬ k0_cond4 (grid0.coords t) = 1#1 := fun h => by have := (hcond4 t).mp h; omega
  have e4 : k0_off4 (grid0.coords t) = ![1, 200 * (t.val - 50), 0] := by
    rw [off4_eq t, show t.val % 50 = t.val - 50 from by omega]
  unfold bodyPre bodyPost bodyAt0
  simp only [before0_0 m c, before0_1 m c]
  rw [show (dats m 0 c).owesAt () t.succ = (dats m 0 c).owesAt () t.castSucc from rfl, Phi_cast, Phi_succ,
    leaves0, leaves1, leaves2_idle m c t hc3 (flush2_false t (by omega)), leaves3_idle m c t hc4 (flush3_false t (by omega))]
  unfold Phi
  iintro ⟨⟨⟨%g, %hinv, Hs⟩, Hr⟩, Ho, ⟨%d0, H0⟩, ⟨%d1, H1⟩, H2, H3⟩
  iapply ((runL1 c (grid0.coords t) _ _ _ _ _ _ _ _ scr (Memref.isWhole_whole _) hc1 hc2 hc3 hc4 (iblk m c 0 t) (iblk m c 1 t) g).2 Set.univ _)
  isplitl [H0]; · iexact H0
  isplitl [H1]; · iexact H1
  isplitl [Hs]; · iexact Hs
  iintro ⟨H0, H1, Hs⟩
  isplitl [Hs Hr]
  · isplitl [Hs]
    · iexists _
      isplitr
      swap
      · iapply (owns_intro (c : Thread nD τ) scr fullShare _); iexact Hs
      ipureintro
      rw [runL1_pieces, whole_write]
      exact inv_write_second (matA m c) (tabX m c) g t.val ht0 ht _
        (fun p cc => stored_second m c t ht0 ht g (fun k cc' => inv_first_full (matA m c) (tabX m c) g ht0 hinv k cc')
          _ (off3_eq t) _ _ p cc) _ e4 _ hinv
    · iexact Hr
  isplitl [Ho]; · iexact Ho
  isplitl [H0]; · iexact H0
  isplitl [H1]; · iexact H1
  isplitl [H2]; · iexact H2
  iexact H3

/-! ### What a whole store leaves, and the third layer's stored blocks as blocks of the result table -/

/-- One store through the whole-block rectangle leaves its value, whatever the memref held. -/
theorem read_whole_store (M : Memref sig .tc .vmem S200x64 .f32) (f : M.view.ty.Contents (Elt Ideal)) (w : S200x64.Idx → Elt Ideal .f32) :
    M.view.read (Elt Ideal) (M.view.writes (Elt Ideal) f
      [⟨Rect.unit (s := S200x64) ![0, 0] S200x64.size inb_S200x64_S200x64_0_0, w⟩]) = w := by
  funext y
  have h := View.read_writes_cons_emb M.view f (Rect.unit (s := S200x64) ![0, 0] S200x64.size inb_S200x64_S200x64_0_0) w [] y
  have e : (Rect.unit (s := S200x64) ![0, 0] S200x64.size inb_S200x64_S200x64_0_0).emb y = y := by
    funext a
    apply Fin.ext
    match a with
    | ⟨0, _⟩ => show (0 : ℕ) + 1 * (y 0).val = (y 0).val; omega
    | ⟨1, _⟩ => show (0 : ℕ) + 1 * (y 1).val = (y 1).val; omega
  rw [e] at h
  exact h

/-- On the user rows the stored block is the user output's block of the result table. -/
theorem third_block (c : Dev nD) (t : Fin cfg0.N) (ht0 : 100 ≤ t.val) (ht : t.val < 130) (g : Vec Ideal S2x10000x64 .f32)
    (hg : ∀ (k : Fin 10000) (cc : Fin 64), g (ix3 (1 : Fin 2) k cc) = r2 (matA m c) (tabX m c) (ix2 k cc))
    (off : Fin 2 → ℕ) (hoff : off = ![200 * (t.val % 50), 0]) (inb : ∀ a, off a + S200x64.size a ≤ S10000x64.size a)
    (inb1 : ∀ a, (![1, 0, 0] : Fin 3 → ℕ) a + S1x10000x64.size a ≤ S2x10000x64.size a) :
    k0_pay3 (F := Ideal) (iblk m c 0 t) (View.ld g (Rect.unit (s := S2x10000x64) ![1, 0, 0] S1x10000x64.size inb1))
        (View.ld (iblk m c 1 t) (Rect.unit (s := S10000x64) off S200x64.size inb)) = out2 m c t := by
  have hN := hN t
  funext y
  obtain ⟨p, cc, rfl⟩ : ∃ (p : Fin 200) (cc : Fin 64), y = ix2 p cc := ⟨y 0, y 1, eq_ix2 y⟩
  rw [stored_third m c t g hg off hoff inb inb1 p cc]
  show r3 (matA m c) (tabX m c) (ix2 (rowOf (200 * (t.val % 50) + p.val)) cc)
    = r3 (matA m c) (tabX m c) (ix2 (rowOf (200 * (min t.val 129 - 100) + p.val)) (⟨cc.val, cc.isLt⟩ : Fin 64))
  rw [Nat.min_eq_left (by omega : t.val ≤ 129), show t.val % 50 = t.val - 100 from by omega]

/-- On the item rows the stored block is the item output's block of the result table. -/
theorem fourth_block (c : Dev nD) (t : Fin cfg0.N) (ht0 : 130 ≤ t.val) (g : Vec Ideal S2x10000x64 .f32)
    (hg : ∀ (k : Fin 10000) (cc : Fin 64), g (ix3 (1 : Fin 2) k cc) = r2 (matA m c) (tabX m c) (ix2 k cc))
    (off : Fin 2 → ℕ) (hoff : off = ![200 * (t.val % 50), 0]) (inb : ∀ a, off a + S200x64.size a ≤ S10000x64.size a)
    (inb1 : ∀ a, (![1, 0, 0] : Fin 3 → ℕ) a + S1x10000x64.size a ≤ S2x10000x64.size a) :
    k0_pay4 (F := Ideal) (iblk m c 0 t) (View.ld g (Rect.unit (s := S2x10000x64) ![1, 0, 0] S1x10000x64.size inb1))
        (View.ld (iblk m c 1 t) (Rect.unit (s := S10000x64) off S200x64.size inb)) = out3 m c t := by
  have hN := hN t
  funext y
  obtain ⟨p, cc, rfl⟩ : ∃ (p : Fin 200) (cc : Fin 64), y = ix2 p cc := ⟨y 0, y 1, eq_ix2 y⟩
  rw [stored_fourth m c t g hg off hoff inb inb1 p cc]
  show r3 (matA m c) (tabX m c) (ix2 (rowOf (200 * (t.val % 50) + p.val)) cc)
    = r3 (matA m c) (tabX m c) (ix2 (rowOf (6000 + 200 * (t.val - 130) + p.val)) (⟨cc.val, cc.isLt⟩ : Fin 64))
  rw [show 200 * (t.val % 50) + p.val = 6000 + 200 * (t.val - 130) + p.val from by omega]

/-! ### The third layer's points on the user rows -/

set_option maxHeartbeats 1000000 in
theorem sound_third (c : Dev nD) (t : Fin cfg0.N) (ht0 : 100 ≤ t.val) (ht : t.val < 130) :
    bodyPre m c t ⊢ wp frame (wpE (defs₀ (F := Ideal)) Variants.none c none) Set.univ (bodyAt0 t) (fun _ => bodyPost m c t) := by
  have hN := hN t
  have hc1 : ¬ k0_cond1 (grid0.coords t) = 1#1 := fun h => by have := (hcond1 t).mp h; omega
  have hc2 : ¬ k0_cond2 (grid0.coords t) = 1#1 := fun h => by have := (hcond2 t).mp h; omega
  have hc3 : k0_cond3 (grid0.coords t) = 1#1 := (hcond3 t).mpr ⟨ht0, ht⟩
  have hc4 : ¬ k0_cond4 (grid0.coords t) = 1#1 := fun h => by have := (hcond4 t).mp h; omega
  unfold bodyPre bodyPost bodyAt0
  simp only [before0_0 m c, before0_1 m c]
  rw [show (dats m 0 c).owesAt () t.succ = (dats m 0 c).owesAt () t.castSucc from rfl, Phi_cast, Phi_succ,
    leaves0, leaves1, leaves2_live m c t hc3, leaves3_idle m c t hc4 (flush3_false t (by omega))]
  unfold Phi
  iintro ⟨⟨⟨%g, %hinv, Hs⟩, Hr⟩, Ho, ⟨%d0, H0⟩, ⟨%d1, H1⟩, ⟨%d2, H2⟩, H3⟩
  iapply ((runL2u c (grid0.coords t) _ _ _ _ _ _ _ _ scr (Memref.isWhole_whole _) hc1 hc2 hc3 hc4 (iblk m c 0 t) (iblk m c 1 t) g).2 Set.univ _)
  isplitl [H0]; · iexact H0
  isplitl [H1]; · iexact H1
  isplitl [Hs]; · iexact Hs
  isplitl [H2]; · iexists _; iexact H2
  iintro ⟨H0, H1, Hs, ⟨%f4, H4⟩⟩
  isplitl [Hs Hr]
  · isplitl [Hs]
    · iexists g
      isplitr; · ipureintro; exact inv_succ_of_full (matA m c) (tabX m c) g ht0 hinv
      iexact Hs
    · iexact Hr
  isplitl [Ho]; · iexact Ho
  isplitl [H0]; · iexact H0
  isplitl [H1]; · iexact H1
  isplitl [H4]
  · unfold owns; iexists _; isplitr
    swap; · iexact H4
    ipureintro
    rw [runL2u_pieces, read_whole_store]
    exact third_block m c t ht0 ht g (fun k cc' => inv_second_full (matA m c) (tabX m c) g ht0 hinv k cc') _ (off5_eq t) _ _
  iexact H3

/-! ### The third layer's points on the item rows -/

/-- Over the item rows the user output's buffer still holds its last block: the window is idle there and is not written
    back before the last point. -/
theorem before2_late (c : Dev nD) (t : Fin cfg0.N) (ht0 : 130 ≤ t.val) (d) : (dats m 0 c).before 2 t d = out2 m c t := by
  have hN := hN t
  have hfresh : ∀ n, n ≤ cfg0.N → cfg0.fresh 2 n = (decide (n ≤ 129) || decide (n = 150)) :=
    cfg0.fresh_tab 2 (fun n => decide (n ≤ 129) || decide (n = 150)) rfl
      (by decide +kernel : ∀ t : Fin grid0.N, (decide (t.val + 1 ≤ 129) || decide (t.val + 1 = 150))
        = (win0_2.flush t || (idle0 2 (grid0.coords t) && (decide (t.val ≤ 129) || decide (t.val = 150)))))
  have hcarry : ∀ (s : Fin cfg0.N) (_ : s.val ≠ 0), cfg0.idle 2 (cfg0.grid.coords s) = true → cfg0.fresh 2 s.val = false →
      (dats m 0 c).after 2 s = (dats m 0 c).after 2 ⟨s.val - 1, by omega⟩ := by
    intro s hs0 _ hf
    have hNs := Cert.KernelIdeal.Body.hN s
    rw [hfresh s.val (le_of_lt s.isLt)] at hf
    simp only [Bool.or_eq_false_iff, decide_eq_false_iff_not] at hf
    rw [after0_2, after0_2]
    refine out2_congr m c _ _ ?_
    show min s.val 129 = min (s.val - 1) 129
    rw [Nat.min_eq_right (by omega), Nat.min_eq_right (by omega)]
  rw [(dats m 0 c).before_out_traj 2 rfl (fun _ _ => rfl) hcarry t.val t rfl d, hfresh t.val (le_of_lt t.isLt)]
  have hb : (decide (t.val ≤ 129) || decide (t.val = 150)) = false := by
    simp only [Bool.or_eq_false_iff, decide_eq_false_iff_not]; omega
  rw [hb, if_neg Bool.false_ne_true, after0_2]
  refine out2_congr m c _ _ ?_
  show min (t.val - 1) 129 = min t.val 129
  rw [Nat.min_eq_right (by omega), Nat.min_eq_right (by omega)]

set_option maxHeartbeats 1000000 in
theorem sound_fourth (c : Dev nD) (t : Fin cfg0.N) (ht0 : 130 ≤ t.val) :
    bodyPre m c t ⊢ wp frame (wpE (defs₀ (F := Ideal)) Variants.none c none) Set.univ (bodyAt0 t) (fun _ => bodyPost m c t) := by
  have hN := hN t
  have hc1 : ¬ k0_cond1 (grid0.coords t) = 1#1 := fun h => by have := (hcond1 t).mp h; omega
  have hc2 : ¬ k0_cond2 (grid0.coords t) = 1#1 := fun h => by have := (hcond2 t).mp h; omega
  have hc3 : ¬ k0_cond3 (grid0.coords t) = 1#1 := fun h => by have := (hcond3 t).mp h; omega
  have hc4 : k0_cond4 (grid0.coords t) = 1#1 := (hcond4 t).mpr ht0
  unfold bodyPre bodyPost bodyAt0
  simp only [before0_0 m c, before0_1 m c, before2_late m c t ht0]
  rw [show (dats m 0 c).owesAt () t.succ = (dats m 0 c).owesAt () t.castSucc from rfl, Phi_cast, Phi_succ,
    leaves0, leaves1, leaves3_live m c t hc4]
  have h2 : (dats m 0 c).leavesExact 2 t ⊣⊢ iprop(∃ d : (cfg0.win 2).block.Idx → Elt Ideal (cfg0.win 2).elt, owns (c : Thread nD τ) (st0_2 t) fullShare (out2 m c t)) := by
    by_cases hl : t.val = 149
    · rw [leaves2_last m c t hc3 ((flush2_iff t).mpr (Or.inr hl))]
      constructor
      · iintro H; iexists (out2 m c t); iexact H
      · iintro ⟨%d, H⟩; iexact H
    · rw [leaves2_idle m c t hc3 (flush2_false t (by omega))]
      simp only [before2_late m c t ht0]
      exact ⟨.rfl, .rfl⟩
  unfold Phi
  iintro ⟨⟨⟨%g, %hinv, Hs⟩, Hr⟩, Ho, ⟨%d0, H0⟩, ⟨%d1, H1⟩, ⟨%d2, H2⟩, ⟨%d3, H3⟩⟩
  iapply ((runL2i c (grid0.coords t) _ _ _ _ _ _ _ _ scr (Memref.isWhole_whole _) hc1 hc2 hc3 hc4 (iblk m c 0 t) (iblk m c 1 t) g).2 Set.univ _)
  isplitl [H0]; · iexact H0
  isplitl [H1]; · iexact H1
  isplitl [Hs]; · iexact Hs
  isplitl [H3]; · iexists _; iexact H3
  iintro ⟨H0, H1, Hs, ⟨%f5, H5⟩⟩
  isplitl [Hs Hr]
  · isplitl [Hs]
    · iexists g
      isplitr; · ipureintro; exact inv_succ_of_full (matA m c) (tabX m c) g (by omega) hinv
      iexact Hs
    · iexact Hr
  isplitl [Ho]; · iexact Ho
  isplitl [H0]; · iexact H0
  isplitl [H1]; · iexact H1
  isplitl [H2]
  · iapply h2.2; iexists d2; iexact H2
  unfold owns; iexists _; isplitr
  swap; · iexact H5
  ipureintro
  rw [runL2i_pieces, read_whole_store]
  exact fourth_block m c t ht0 g (fun k cc' => inv_second_full (matA m c) (tabX m c) g (by omega) hinv k cc') _ (off6_eq t) _ _

/-! ### Every point -/

theorem sound_body (c : Dev nD) (t : Fin cfg0.N) :
    bodyPre m c t ⊢ wp frame (wpE (defs₀ (F := Ideal)) Variants.none c none) Set.univ (bodyAt0 t) (fun _ => bodyPost m c t) := by
  have hN := hN t
  by_cases h1 : t.val < 50
  · exact sound_first m c t h1
  by_cases h2 : t.val < 100
  · exact sound_second m c t (by omega) h2
  by_cases h3 : t.val < 130
  · exact sound_third m c t (by omega) h3
  · exact sound_fourth m c t (by omega)

/-- The library's body obligation, at every point. -/
theorem body_obligation (c : Dev nD) : BodyObligation (dats m 0 c) (defs₀ (F := Ideal)) Variants.none () Set.univ := fun t => by
  rw [bigSep_W0, bigSep_W0]
  exact sound_body m c t

end Cert.KernelIdeal.Body

end
-- ==== Proof.IdealFinal.lean ====
import proofs.«137725_g6708738916894_cont_9to1_m_1122_6_alg».proof.Proof.IdealData
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Horner

/-! # The idealized kernel's output arrays after the run

The two outputs are written back block by block, 200 rows at a time. The user output's 30 blocks are written back at
points `100 … 128` (block `t − 100`) and, the last one, at the last point; the item output's 20 blocks at points
`130 … 149` (block `t − 130`). What each of these points writes back is its 200 rows of ONE table — the third Horner
layer of the matrix and the stacked embedding table, read from row 0 for the users and from row 6000 for the items —
and the written-back blocks fill each array. So after the run each array is that table's rows. -/

/-! ## Which indices a point's block holds, and that the written-back blocks fill each output array -/

/-- An index of the user output's array is in point `t`'s block iff each coordinate is in the block's range on its axis. -/
theorem mem_blk2 (t : Fin cfg0.N) (i : S6000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v1_0).slice (win0_2.rect t)).set ↔ _
  rw [View.set_slice_whole, Rect.mem_set_unit]
  exact Iff.rfl

/-- The same for the item output's array. -/
theorem mem_blk3 (t : Fin cfg0.N) (i : S4000x64.Idx) :
    i ∈ ((cfg0.win 3).blk t).view.set ↔ ∀ a : Fin 2, win0_3.index t a * S200x64.size a ≤ (i a).val ∧ (i a).val < win0_3.index t a * S200x64.size a + S200x64.size a := by
  show i ∈ ((View.whole main_v1_1).slice (win0_3.rect t)).set ↔ _
  rw [View.set_slice_whole, Rect.mem_set_unit]
  exact Iff.rfl

/-- Every index of the user output's array lies in the block of a point that writes back: row block `b = i₀ / 200` is
    written back at point `100 + b` for `b < 29`, and the last one, `b = 29`, at the last point. -/
theorem cover2 (i : S6000x64.Idx) : ∃ t : Fin cfg0.N, (cfg0.win 2).flush t = true ∧ i ∈ ((cfg0.win 2).blk t).view.set := by
  have hi0 : (i 0).val < 6000 := idx2_lt0 i
  have hi1 : (i 1).val < 64 := idx2_lt1 i
  by_cases hb : (i 0).val / 200 < 29
  · let t : Fin cfg0.N := ⟨100 + (i 0).val / 200, lt_of_lt_of_eq (by omega : 100 + (i 0).val / 200 < 150) N_0.symm⟩
    have htv : t.val = 100 + (i 0).val / 200 := rfl
    have q0 : win0_2.index t (0 : Fin 2) = min (t.val - 100) 29 := congrFun (idx2_eq t) 0
    have q1 : win0_2.index t (1 : Fin 2) = 0 := congrFun (idx2_eq t) 1
    refine ⟨t, (flush2_iff t).mpr (Or.inl (by omega)), ?_⟩
    rw [mem_blk2]
    intro a
    match a with
    | ⟨0, _⟩ => show win0_2.index t (0 : Fin 2) * 200 ≤ (i 0).val ∧ (i 0).val < win0_2.index t (0 : Fin 2) * 200 + 200; omega
    | ⟨1, _⟩ => show win0_2.index t (1 : Fin 2) * 64 ≤ (i 1).val ∧ (i 1).val < win0_2.index t (1 : Fin 2) * 64 + 64; omega
  · let t : Fin cfg0.N := ⟨149, lt_of_lt_of_eq (by omega : 149 < 150) N_0.symm⟩
    have htv : t.val = 149 := rfl
    have q0 : win0_2.index t (0 : Fin 2) = min (t.val - 100) 29 := congrFun (idx2_eq t) 0
    have q1 : win0_2.index t (1 : Fin 2) = 0 := congrFun (idx2_eq t) 1
    refine ⟨t, (flush2_iff t).mpr (Or.inr htv), ?_⟩
    rw [mem_blk2]
    intro a
    match a with
    | ⟨0, _⟩ => show win0_2.index t (0 : Fin 2) * 200 ≤ (i 0).val ∧ (i 0).val < win0_2.index t (0 : Fin 2) * 200 + 200; omega
    | ⟨1, _⟩ => show win0_2.index t (1 : Fin 2) * 64 ≤ (i 1).val ∧ (i 1).val < win0_2.index t (1 : Fin 2) * 64 + 64; omega

/-- Every index of the item output's array lies in the block of a point that writes back: row block `b = i₀ / 200` is
    written back at point `130 + b`. -/
theorem cover3 (i : S4000x64.Idx) : ∃ t : Fin cfg0.N, (cfg0.win 3).flush t = true ∧ i ∈ ((cfg0.win 3).blk t).view.set := by
  have hi0 : (i 0).val < 4000 := idx2_lt0 i
  have hi1 : (i 1).val < 64 := idx2_lt1 i
  let t : Fin cfg0.N := ⟨130 + (i 0).val / 200, lt_of_lt_of_eq (by omega : 130 + (i 0).val / 200 < 150) N_0.symm⟩
  have htv : t.val = 130 + (i 0).val / 200 := rfl
  have q0 : win0_3.index t (0 : Fin 2) = t.val - 130 := congrFun (idx3_eq t) 0
  have q1 : win0_3.index t (1 : Fin 2) = 0 := congrFun (idx3_eq t) 1
  refine ⟨t, (flush3_iff t).mpr (by omega), ?_⟩
  rw [mem_blk3]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 64 ≤ (i 1).val ∧ (i 1).val < win0_3.index t (1 : Fin 2) * 64 + 64; omega

/-! ## What each point writes back, as a block of one table; and the arrays after the run -/

variable (m : (ℓ : Loc nD τ sig) → Buf (Elt Ideal) ℓ)

/-- The user output's array after the run: rows `0 … 5999` of the result table. -/
def finalU (c : Dev nD) : S6000x64.Idx → Elt Ideal .f32 := fun i =>
  r3 (matA m c) (tabX m c) (ix2 (⟨(i 0).val, by have := idx2_lt0 i; omega⟩ : Fin 10000) (i 1))
/-- The item output's array after the run: rows `6000 … 9999` of the result table. -/
def finalI (c : Dev nD) : S4000x64.Idx → Elt Ideal .f32 := fun i =>
  r3 (matA m c) (tabX m c) (ix2 (⟨(i 0).val + 6000, by have := idx2_lt0 i; omega⟩ : Fin 10000) (i 1))

/-- What a point that writes the user output back writes is its block of `finalU`: the block's rows start at row
    `200 ×` the block index, which at such a point is `min t 129 − 100`. -/
theorem flushed2_eq (c : Dev nD) (t : Fin cfg0.N) (hf : (cfg0.win 2).flush t = true) :
    (dats m 0 c).flushed 2 t = ((cfg0.win 2).blk t).view.read (Elt Ideal) (finalU m c) := by
  show (cfg0.win 2).cut (grid0.coords t) ((dats m 0 c).after 2 t) = _
  rw [after0_2]
  have ht := hN t
  have hf' := (flush2_iff t).mp hf
  have q0 : win0_2.index t (0 : Fin 2) = min (t.val - 100) 29 := congrFun (idx2_eq t) 0
  have q1 : win0_2.index t (1 : Fin 2) = 0 := congrFun (idx2_eq t) 1
  funext y
  have hy0 : (y 0).val < 200 := (y 0).isLt
  have hy1 : (y 1).val < 64 := (y 1).isLt
  show out2 m c t y = finalU m c (((cfg0.win 2).blk t).view.emb y)
  unfold out2 finalU
  refine congrArg (r3 (matA m c) (tabX m c)) (funext fun a => Fin.ext ?_)
  match a with
  | ⟨0, _⟩ =>
    show (rowOf (200 * (min t.val 129 - 100) + (y 0).val)).val = win0_2.index t (0 : Fin 2) * 200 + 1 * (y 0).val
    rw [rowOf_val (by omega)]; omega
  | ⟨1, _⟩ =>
    show (y 1).val = win0_2.index t (1 : Fin 2) * 64 + 1 * (y 1).val
    omega

/-- What a point that writes the item output back writes is its block of `finalI`: the block index there is `t − 130`. -/
theorem flushed3_eq (c : Dev nD) (t : Fin cfg0.N) (hf : (cfg0.win 3).flush t = true) :
    (dats m 0 c).flushed 3 t = ((cfg0.win 3).blk t).view.read (Elt Ideal) (finalI m c) := by
  show (cfg0.win 3).cut (grid0.coords t) ((dats m 0 c).after 3 t) = _
  rw [after0_3]
  have ht := hN t
  have hf' := (flush3_iff t).mp hf
  have q0 : win0_3.index t (0 : Fin 2) = t.val - 130 := congrFun (idx3_eq t) 0
  have q1 : win0_3.index t (1 : Fin 2) = 0 := congrFun (idx3_eq t) 1
  funext y
  have hy0 : (y 0).val < 200 := (y 0).isLt
  have hy1 : (y 1).val < 64 := (y 1).isLt
  show out3 m c t y = finalI m c (((cfg0.win 3).blk t).view.emb y)
  unfold out3 finalI
  refine congrArg (r3 (matA m c) (tabX m c)) (funext fun a => Fin.ext ?_)
  match a with
  | ⟨0, _⟩ =>
    show (rowOf (6000 + 200 * (t.val - 130) + (y 0).val)).val = win0_3.index t (0 : Fin 2) * 200 + 1 * (y 0).val + 6000
    rw [rowOf_val (by omega)]; omega
  | ⟨1, _⟩ =>
    show (y 1).val = win0_3.index t (1 : Fin 2) * 64 + 1 * (y 1).val
    omega

/-- THE USER OUTPUT after the run: rows `0 … 5999` of the third Horner layer of the matrix and the stacked table. -/
theorem final_users (c : Dev nD) : (dats m 0 c).arrAt 2 cfg0.N = fun i =>
    r3 (matA m c) (tabX m c) (ix2 (⟨(i 0).val, by have := idx2_lt0 i; omega⟩ : Fin 10000) (i 1)) :=
  (dats m 0 c).arrAt_eq_of_cover 2 (finalU m c) (flushed2_eq m c) cover2

/-- THE ITEM OUTPUT after the run: rows `6000 … 9999` of the third Horner layer. -/
theorem final_items (c : Dev nD) : (dats m 0 c).arrAt 3 cfg0.N = fun i =>
    r3 (matA m c) (tabX m c) (ix2 (⟨(i 0).val + 6000, by have := idx2_lt0 i; omega⟩ : Fin 10000) (i 1)) :=
  (dats m 0 c).arrAt_eq_of_cover 3 (finalI m c) (flushed3_eq m c) cover3

end Cert.KernelIdeal.Body

end
-- ==== Proof.IdealRun.lean ====
import proofs.«137725_g6708738916894_cont_9to1_m_1122_6_alg».proof.Proof.Gen.KernelIdeal.Frame
import proofs.«137725_g6708738916894_cont_9to1_m_1122_6_alg».proof.Proof.Gen.KernelIdeal.Skeleton
import proofs.«137725_g6708738916894_cont_9to1_m_1122_6_alg».proof.Proof.IdealBody
import proofs.«137725_g6708738916894_cont_9to1_m_1122_6_alg».proof.Proof.IdealFinal
import Idealize.ShloMosaic.Lib.StableHlo.Run
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Horner

/-! The idealized kernel's run: every execution ends with the user output at the first 6000 rows of the result table
    `r3` of the matrix and the stacked embedding table, the item output at its last 4000 rows, and the arguments
    unchanged. -/

variable (m : (ℓ : Loc nD τ sig) → Buf (Elt Ideal) ℓ) (ρ : Dev nD → PrngReg)

/-- Before the first point the scratch holds anything: the property of point 0 asks nothing. -/
theorem phi_in (c : Dev nD) : (Pipeline.ΦA spec0 c : sProp 𝕄) ⊢ (dats m 0 c).Φ 0 := by
  rw [show (dats m 0 c).Φ 0 = Phi m c 0 from rfl]
  unfold Pipeline.ΦA Phi
  rw [scopedRest0_eq]
  simp only [owns_whole]
  iintro ⟨⟨%f, Hs⟩, Hr⟩
  isplitl [Hs]
  · iexists f
    isplitr; · ipureintro; exact inv_zero _ _ _
    iexact Hs
  · iexact Hr

/-- After the last point the scratch is given back, its contents forgotten. -/
theorem phi_out (c : Dev nD) : (dats m 0 c).Φ (Fin.last cfg0.N) ⊢ (Pipeline.ΦA spec0 c : sProp 𝕄) := by
  rw [show (dats m 0 c).Φ (Fin.last cfg0.N) = Phi m c cfg0.N from rfl]
  unfold Pipeline.ΦA Phi
  rw [scopedRest0_eq]
  simp only [owns_whole]
  iintro ⟨⟨%g, %hg, Hs⟩, Hr⟩
  isplitl [Hs]
  · iexists g; iexact Hs
  · iexact Hr

set_option backward.isDefEq.respectTransparency.types false in
/-- Every weakly fair execution of the program terminates, every array of the pipeline at what the proof data computes. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame: the program runs and leaves its arguments unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The stacked table the region finds is the concatenation of the two embedding tables as launched. -/
theorem tabX_eq (c : Dev nD) :
    tabX m c = concatenate S10000x64 0 [⟨S6000x64, m ((c.tc : Thread nD τ).loc main_arg0)⟩, ⟨S4000x64, m ((c.tc : Thread nD τ).loc main_arg1)⟩]
      concatenates_S6000x64_S4000x64_S10000x64_d0 := by
  unfold tabX
  dsimp only [V, hostOps0]
  after_results

/-- The matrix the region finds is the matrix as launched. -/
theorem matA_eq (c : Dev nD) : matA m c = m ((c.tc : Thread nD τ).loc main_arg2) := V_main_arg2 m c

/-- The run with its results named: the two outputs are the two row ranges of `r3`. -/
theorem run_values : θ_run defs (onTc (τ := τ) (main (F := Ideal))) ⟨m, fun _ => 0, ρ⟩ (fun r => ∀ c : Dev nD,
      r.2.mem ((c.tc : Thread nD τ).loc main_v1_0) = (fun i : S6000x64.Idx => r3 (matA m c) (tabX m c)
          (ix2 (⟨(i 0).val, by have := idx2_lt0 i; omega⟩ : Fin 10000) (i 1)))
      ∧ r.2.mem ((c.tc : Thread nD τ).loc main_v1_1) = (fun i : S4000x64.Idx => r3 (matA m c) (tabX m c)
          (ix2 (⟨(i 0).val + 6000, by have := idx2_lt0 i; omega⟩ : Fin 10000) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (final_users m c), ((h c).1 3).trans (final_items m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats m 0 c).arrAt_in 0 rfl _).trans ((A_eq m c 0).trans (V_main_arg2 m c)))⟩) (run_main m ρ)

end Cert.KernelIdeal.Body

end
-- ==== Proof.LibReals.lean ====
/-
  Extended reals that are real numbers, and the operations that keep them so.

  At the exact (ideal) reading a float is an extended real. When a kernel's inputs are finite, every value it forms
  from them by sums, differences, products, maxima, Euclidean norms, quotients by positive reals and exponentials
  is again a real number; a value proof that needs a law of the reals (distributivity, cancelling, (√s)² = s) first
  shows its operands real with these closure facts, then takes real witnesses (`choose`) and computes in ℝ.

    IsR x : x is a real number;   IsP x : x is a positive real number.
    isR_add / isR_sub / isR_mul / isR_sum / isR_max     closure
    isP_max     the larger of a real and a positive real is a positive real (a norm floored at ε)
    isR_norm    √(Σ uᵢ²) of reals is a real;  sumsq_coe, sqrt_coe_of_nonneg, coe_sum, coe_max push the coercion
    div_coe_coe, isR_div       a quotient by a positive real
    isP_exp, isP_sum           exponentials are positive reals, and so is a nonempty sum of positive reals
    isR_fold_max               the maximum of a nonempty finite family of reals, folded from −∞, is a real
    isR_softmax                exp (z k − M) / Σ_j exp (z j − M) of real scores is a real
    mul_recip                  v · (1 / g) = v / g for a positive real g and EVERY extended real v
-/
import Idealize.ShloMosaic.PureOps.Ideal

noncomputable section

namespace Cert.LibReals

open Idealize.ShloMosaic

/-- x is a real number. -/
def IsR (x : EReal) : Prop := ∃ r : ℝ, x = (r : EReal)
/-- x is a positive real number. -/
def IsP (x : EReal) : Prop := ∃ r : ℝ, 0 < r ∧ x = (r : EReal)

theorem IsP.isR {x : EReal} (h : IsP x) : IsR x := let ⟨r, _, e⟩ := h; ⟨r, e⟩

theorem isR_zero : IsR 0 := ⟨0, rfl⟩
theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} [Fintype ι] (f : ι → EReal) (h : ∀ i, IsR (f i)) : IsR (∑ i, f i) := by
  choose g hg using h
  exact ⟨∑ i, g i, (Finset.sum_congr rfl fun i _ => hg i).trans (coe_sum _ _).symm⟩

theorem isP_sum {ι : Type} [Fintype ι] [Nonempty ι] (f : ι → EReal) (h : ∀ i, IsP (f i)) : IsP (∑ i, f i) := by
  choose g hg0 hg using h
  exact ⟨∑ i, g i, Finset.sum_pos (fun i _ => hg0 i) Finset.univ_nonempty,
    (Finset.sum_congr rfl fun i _ => hg i).trans (coe_sum _ _).symm⟩

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem isR_max {x y : EReal} (hx : IsR x) (hy : IsR y) : IsR (max x y) := by
  obtain ⟨a, rfl⟩ := hx; obtain ⟨b, rfl⟩ := hy; exact ⟨max a b, (coe_max a b).symm⟩

/-- The larger of a real and a positive real is a positive real. -/
theorem isP_max {x ε : EReal} (hx : IsR x) (hε : IsP ε) : IsP (max x ε) := by
  obtain ⟨a, rfl⟩ := hx; obtain ⟨e, he, rfl⟩ := hε
  exact ⟨max a e, lt_max_of_lt_right he, (coe_max a e).symm⟩

theorem sqrt_coe_of_nonneg {r : ℝ} (h : 0 ≤ r) : Ideal.sqrt (r : EReal) = (Real.sqrt r : EReal) := by
  rw [Ideal.sqrt_coe, if_neg (not_lt.2 h)]

/-- A sum of squares of reals is the coercion of the real sum of squares. -/
theorem sumsq_coe {ι : Type} [Fintype ι] (g : ι → ℝ) :
    (∑ i, (g i : EReal) * (g i : EReal)) = ((∑ i, g i * g i : ℝ) : EReal) := by
  rw [coe_sum]; exact Finset.sum_congr rfl fun i _ => (EReal.coe_mul _ _).symm

/-- The Euclidean norm of a family of reals is a real. -/
theorem isR_norm {ι : Type} [Fintype ι] (u : ι → EReal) (h : ∀ i, IsR (u i)) : IsR (Ideal.sqrt (∑ i, u i * u i)) := by
  choose g hg using h
  refine ⟨Real.sqrt (∑ i, g i * g i), ?_⟩
  rw [show (∑ i, u i * u i) = ((∑ i, g i * g i : ℝ) : EReal) from by
    rw [← sumsq_coe]; exact Finset.sum_congr rfl fun i _ => by rw [hg i]]
  exact sqrt_coe_of_nonneg (Finset.sum_nonneg fun i _ => mul_self_nonneg _)

/-- A quotient of reals by a nonzero real. -/
theorem div_coe_coe (x : ℝ) {y : ℝ} (hy : y ≠ 0) : Ideal.div (x : EReal) (y : EReal) = ((x / y : ℝ) : EReal) := by
  rw [Ideal.div_coe hy, ← EReal.coe_mul, mul_one_div]

theorem isR_div {x y : EReal} (hx : IsR x) (hy : IsP y) : IsR (Ideal.div x y) := by
  obtain ⟨a, rfl⟩ := hx; obtain ⟨b, hb, rfl⟩ := hy; exact ⟨a / b, div_coe_coe a hb.ne'⟩

theorem isP_exp {x : EReal} (hx : IsR x) : IsP (Ideal.exp x) := by
  obtain ⟨a, rfl⟩ := hx; exact ⟨Real.exp a, Real.exp_pos a, rfl⟩

/-- The maximum of a nonempty finite family of reals, folded from −∞, is a real. -/
theorem isR_fold_max {ι : Type} [Fintype ι] [Nonempty ι] (z : ι → EReal) (hz : ∀ i, IsR (z i)) :
    IsR (Finset.univ.fold max ⊥ z) := by
  have e : Finset.univ.fold max ⊥ z = Finset.univ.sup z := rfl
  obtain ⟨i, _, hi⟩ := Finset.exists_mem_eq_sup Finset.univ Finset.univ_nonempty z
  rw [e, hi]; exact hz i

/-- The softmax weight of a real score among real scores is a real: exp (z k − M) / Σ_j exp (z j − M), M their maximum. -/
theorem isR_softmax {ι : Type} [Fintype ι] [Nonempty ι] (z : ι → EReal) (hz : ∀ i, IsR (z i)) (k : ι) :
    IsR (Ideal.div (Ideal.exp (z k - max ⊥ (Finset.univ.fold max ⊥ z)))
      (∑ j, Ideal.exp (z j - max ⊥ (Finset.univ.fold max ⊥ z)))) := by
  have hM : IsR (max ⊥ (Finset.univ.fold max ⊥ z)) := by
    rw [max_eq_right bot_le]; exact isR_fold_max z hz
  exact isR_div (isP_exp (isR_sub (hz k) hM)).isR (isP_sum _ fun j => isP_exp (isR_sub (hz j) hM))

/-- Scaling by the reciprocal of a positive real is dividing by it, on every extended real. -/
theorem mul_recip {g : EReal} (hg : IsP g) (v : EReal) : v * Ideal.div 1 g = Ideal.div v g := by
  obtain ⟨a, ha, rfl⟩ := hg
  rw [Ideal.div_coe ha.ne', Ideal.div_coe ha.ne', one_mul]

end Cert.LibReals

end
-- ==== Proof.HornerLaw.lean ====
/-
  The Horner form of the layered propagation equals the weighted sum of the powers.

  With S¹ = A·X, S² = A·S¹, S³ = A·S² the Horner layers are
      r1 = q S¹ + q X,   r2 = A r1 + q X = q S² + q S¹ + q X,   r3 = A r2 + q X = q S³ + q S² + q S¹ + q X.
  Each equality moves the matrix product through a sum and through the factor q: distributivity, which holds in the
  extended reals only away from the infinities. So the tables are assumed to hold real numbers; then every partial
  product and every partial sum is a real number too, and the computation is the one in ℝ. Reordering the four
  summands at the end needs nothing: addition of extended reals is commutative and associative.
-/
import proofs.«137725_g6708738916894_cont_9to1_m_1122_6_alg».proof.Proof.Horner
import proofs.«137725_g6708738916894_cont_9to1_m_1122_6_alg».proof.Proof.LibReals

noncomputable section

namespace Cert.HornerLaw

open Idealize.ShloMosaic Idealize.ShloMosaic.ValueIdx Cert.Horner Cert.LibReals

/-- The weight is a real number: the exponent field of its word is not all ones. -/
theorem isR_q : IsR q := by
  show IsR (Ideal.ieee 8 23 (0x3E800000#32))
  unfold Ideal.ieee
  dsimp only
  rw [if_neg (by decide), if_neg (by decide)]
  exact ⟨_, rfl⟩

/-- A real factor distributes over a sum of two reals. -/
theorem mul_add_of_isR {a y z : EReal} (ha : IsR a) (hy : IsR y) (hz : IsR z) : a * (y + z) = a * y + a * z := by
  obtain ⟨a, rfl⟩ := ha; obtain ⟨y, rfl⟩ := hy; obtain ⟨z, rfl⟩ := hz
  rw [← EReal.coe_add, ← EReal.coe_mul, ← EReal.coe_mul, ← EReal.coe_mul, ← EReal.coe_add, mul_add]

/-- A real factor moves inside a finite sum of reals. -/
theorem mul_sum_of_isR {ι : Type} [Fintype ι] {c : EReal} (hc : IsR c) (f : ι → EReal) (hf : ∀ k, IsR (f k)) :
    c * ∑ k, f k = ∑ k, c * f k := by
  obtain ⟨r, rfl⟩ := hc
  choose g hg using hf
  simp only [hg]
  rw [← coe_sum, ← EReal.coe_mul, Finset.mul_sum, coe_sum]
  exact Finset.sum_congr rfl fun k _ => EReal.coe_mul _ _

/-- A propagation step of real tables is a real table. -/
theorem isR_step {A : Mat} {Y : Tab} (hA : ∀ i, IsR (A i)) (hY : ∀ i, IsR (Y i)) (i : (⟨2, ![10000, 64]⟩ : Shape).Idx) :
    IsR (step A Y i) :=
  isR_sum (fun k : Fin 10000 => A (ix2 (i 0) k) * Y (ix2 k (i 1))) fun k => isR_mul (hA _) (hY _)

/-- A propagation step is additive on real tables. -/
theorem step_add {A : Mat} (Y Z : Tab) (hA : ∀ i, IsR (A i)) (hY : ∀ i, IsR (Y i)) (hZ : ∀ i, IsR (Z i))
    (i : (⟨2, ![10000, 64]⟩ : Shape).Idx) : step A (fun j => Y j + Z j) i = step A Y i + step A Z i := by
  show (∑ k : Fin 10000, A (ix2 (i 0) k) * (Y (ix2 k (i 1)) + Z (ix2 k (i 1))))
    = (∑ k : Fin 10000, A (ix2 (i 0) k) * Y (ix2 k (i 1))) + ∑ k : Fin 10000, A (ix2 (i 0) k) * Z (ix2 k (i 1))
  rw [← Finset.sum_add_distrib]
  exact Finset.sum_congr rfl fun k _ => mul_add_of_isR (hA _) (hY _) (hZ _)

/-- A propagation step commutes with a real factor on real tables. -/
theorem step_smul {c : EReal} (hc : IsR c) {A : Mat} (Y : Tab) (hA : ∀ i, IsR (A i)) (hY : ∀ i, IsR (Y i))
    (i : (⟨2, ![10000, 64]⟩ : Shape).Idx) : step A (fun j => c * Y j) i = c * step A Y i := by
  show (∑ k : Fin 10000, A (ix2 (i 0) k) * (c * Y (ix2 k (i 1)))) = c * ∑ k : Fin 10000, A (ix2 (i 0) k) * Y (ix2 k (i 1))
  rw [mul_sum_of_isR hc _ fun k => isR_mul (hA _) (hY _)]
  exact Finset.sum_congr rfl fun k _ => mul_left_comm _ _ _

/-- The second Horner layer, multiplied out. -/
theorem r2_eq {A : Mat} {X : Tab} (hA : ∀ i, IsR (A i)) (hX : ∀ i, IsR (X i)) :
    r2 A X = fun i => q * step A (step A X) i + q * step A X i + q * X i := by
  funext i
  show step A (fun j => q * step A X j + q * X j) i + q * X i = _
  rw [step_add (fun j => q * step A X j) (fun j => q * X j) hA (fun j => isR_mul isR_q (isR_step hA hX j))
      (fun j => isR_mul isR_q (hX j)),
    step_smul isR_q (step A X) hA (isR_step hA hX), step_smul isR_q X hA hX]

/-- **The law.** On real tables the third Horner layer is the sum, from zero, of the four weighted powers
    q X, q A X, q A² X, q A³ X, added in this order. -/
theorem r3_eq_sum {A : Mat} {X : Tab} (hA : ∀ i, IsR (A i)) (hX : ∀ i, IsR (X i)) (i : (⟨2, ![10000, 64]⟩ : Shape).Idx) :
    r3 A X i = 0 + (q * X i + q * step A X i + q * step A (step A X) i + q * step A (step A (step A X)) i) := by
  have h1 := isR_step hA hX
  have h2 := isR_step hA h1
  show step A (r2 A X) i + q * X i = _
  rw [r2_eq hA hX,
    step_add (fun j => q * step A (step A X) j + q * step A X j) (fun j => q * X j) hA
      (fun j => isR_add (isR_mul isR_q (h2 j)) (isR_mul isR_q (h1 j))) (fun j => isR_mul isR_q (hX j)),
    step_add (fun j => q * step A (step A X) j) (fun j => q * step A X j) hA
      (fun j => isR_mul isR_q (h2 j)) (fun j => isR_mul isR_q (h1 j)),
    step_smul isR_q (step A (step A X)) hA h2, step_smul isR_q (step A X) hA h1, step_smul isR_q X hA hX, zero_add]
  ac_rfl

end Cert.HornerLaw

end
-- ==== Proof.RefValue.lean ====
/-
  The reference program's two results, read entry by entry, are rows of the third Horner layer.

  The reference forms the table X (the user rows above the item rows), the three matrix products
  S¹ = A·X, S² = A·S¹, S³ = A·S², weights each of X, S¹, S², S³ by q, stacks the four weighted tables along a new
  leading axis, and adds the stack up along that axis starting from the zero word; the two results are the first 6000
  and the last 4000 rows of the sum. Entry by entry that sum is 0 + (((q X + q S¹) + q S²) + q S³), which on tables of
  real numbers is the third Horner layer (the law of the Horner form).
-/
import proofs.«137725_g6708738916894_cont_9to1_m_1122_6_alg».proof.Proof.Gen.ReferenceIdeal.Read
import proofs.«137725_g6708738916894_cont_9to1_m_1122_6_alg».proof.Proof.Horner
import proofs.«137725_g6708738916894_cont_9to1_m_1122_6_alg».proof.Proof.LibReals
import proofs.«137725_g6708738916894_cont_9to1_m_1122_6_alg».proof.Proof.HornerLaw
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open Cert.Horner Cert.LibReals

/-! ### The matrix products -/

/-- A sum over the contracted axis whose left factor runs along row `i 0` of the matrix and whose right factor runs
    down column `i 1` of the table is the propagation step at `i`. -/
theorem sum_eq_step (A : Mat) (Y : Tab) (i : S10000x64.Idx) (l : Fin 10000 → S10000x10000.Idx) (r : Fin 10000 → S10000x64.Idx)
    (hl : ∀ k, l k = ix2 (i 0) k) (hr : ∀ k, r k = ix2 k (i 1)) :
    (∑ k : Fin 10000, A (l k) * Y (r k)) = step A Y i := by
  show _ = ∑ k : Fin 10000, A (ix2 (i 0) k) * Y (ix2 k (i 1))
  exact Finset.sum_congr rfl fun k _ => by rw [hl k, hr k]; rfl

/-- The matrix index of a product's term: row `i 0`, column `k`. -/
theorem row_idx (i : S10000x64.Idx) (k : Fin 10000) :
    (fun a => match a with | ⟨0, _⟩ => ⟨(i 0).val, (i 0).isLt⟩ | ⟨1, _⟩ => ⟨k.val, k.isLt⟩ : S10000x10000.Idx) = ix2 (i 0) k := by
  funext a; match a with | ⟨0, _⟩ => rfl | ⟨1, _⟩ => rfl

/-- The table index of a product's term: row `k`, column `i 1`. -/
theorem col_idx (i : S10000x64.Idx) (k : Fin 10000) :
    (fun a => match a with | ⟨0, _⟩ => ⟨k.val, k.isLt⟩ | ⟨1, _⟩ => ⟨(i 1).val, (i 1).isLt⟩ : S10000x64.Idx) = ix2 k (i 1) := by
  funext a; match a with | ⟨0, _⟩ => rfl | ⟨1, _⟩ => rfl

/-- The first product is the step applied to X. -/
theorem product1 (u : (⟨S6000x64, .f32⟩ : BufTy).Contents (Elt Ideal)) (v : (⟨S4000x64, .f32⟩ : BufTy).Contents (Elt Ideal)) (A : (⟨S10000x10000, .f32⟩ : BufTy).Contents (Elt Ideal)) :
    val_main_v3 (F := Ideal) u v A = step A (val_main_v0 (F := Ideal) u v) := by
  funext i
  rw [val_main_v3_apply]
  exact sum_eq_step A _ i _ _ (row_idx i) (col_idx i)

/-- The second product is the step applied twice. -/
theorem product2 (u : (⟨S6000x64, .f32⟩ : BufTy).Contents (Elt Ideal)) (v : (⟨S4000x64, .f32⟩ : BufTy).Contents (Elt Ideal)) (A : (⟨S10000x10000, .f32⟩ : BufTy).Contents (Elt Ideal)) :
    val_main_v6 (F := Ideal) u v A = step A (step A (val_main_v0 (F := Ideal) u v)) := by
  funext i
  rw [val_main_v6_apply, product1]
  exact sum_eq_step A _ i _ _ (row_idx i) (col_idx i)

/-- The third product is the step applied three times. -/
theorem product3 (u : (⟨S6000x64, .f32⟩ : BufTy).Contents (Elt Ideal)) (v : (⟨S4000x64, .f32⟩ : BufTy).Contents (Elt Ideal)) (A : (⟨S10000x10000, .f32⟩ : BufTy).Contents (Elt Ideal)) :
    val_main_v9 (F := Ideal) u v A = step A (step A (step A (val_main_v0 (F := Ideal) u v))) := by
  funext i
  rw [val_main_v9_apply, product2]
  exact sum_eq_step A _ i _ _ (row_idx i) (col_idx i)

/-! ### The four weighted tables -/

/-- The weight, broadcast over the table, is q at every entry (four copies of the same constant). -/
theorem weight0 (i : S10000x64.Idx) : val_main_v1 (F := Ideal) i = q := by rw [val_main_v1_apply, val_main_cst_apply]; rfl
theorem weight1 (i : S10000x64.Idx) : val_main_v4 (F := Ideal) i = q := by rw [val_main_v4_apply, val_main_cst_0_apply]; rfl
theorem weight2 (i : S10000x64.Idx) : val_main_v7 (F := Ideal) i = q := by rw [val_main_v7_apply, val_main_cst_1_apply]; rfl
theorem weight3 (i : S10000x64.Idx) : val_main_v10 (F := Ideal) i = q := by rw [val_main_v10_apply, val_main_cst_2_apply]; rfl

theorem weighted0 (u : (⟨S6000x64, .f32⟩ : BufTy).Contents (Elt Ideal)) (v : (⟨S4000x64, .f32⟩ : BufTy).Contents (Elt Ideal)) (i : S10000x64.Idx) :
    val_main_v2 (F := Ideal) u v i = q * val_main_v0 (F := Ideal) u v i := by
  rw [val_main_v2_apply, weight0]; rfl
theorem weighted1 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v5 (F := Ideal) u v A i = q * step A (val_main_v0 (F := Ideal) u v) i := by
  rw [val_main_v5_apply, weight1, product1]; rfl
theorem weighted2 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v8 (F := Ideal) u v A i = q * step A (step A (val_main_v0 (F := Ideal) u v)) i := by
  rw [val_main_v8_apply, weight2, product2]; rfl
theorem weighted3 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v11 (F := Ideal) u v A i = q * step A (step A (step A (val_main_v0 (F := Ideal) u v))) i := by
  rw [val_main_v11_apply, weight3, product3]; rfl

/-! ### The stack of the four tables, one layer at a time -/

/-- The index (0, r, c) of a one-layer table, from the index (r, c). -/
abbrev lift (i : S10000x64.Idx) : S1x10000x64.Idx := fun a => match a with
  | ⟨0, _⟩ => ⟨0, Nat.one_pos⟩
  | ⟨1, _⟩ => ⟨(i 0).val, (i 0).isLt⟩
  | ⟨2, _⟩ => ⟨(i 1).val, (i 1).isLt⟩

/-- Dropping the leading coordinate of (0, r, c) gives back (r, c) (once for each of the four one-layer tables). -/
theorem drop_lift0 (i : S10000x64.Idx) : idx_main_v12 (lift i) = i := by
  funext a; match a with | ⟨0, _⟩ => rfl | ⟨1, _⟩ => rfl
theorem drop_lift1 (i : S10000x64.Idx) : idx_main_v13 (lift i) = i := by
  funext a; match a with | ⟨0, _⟩ => rfl | ⟨1, _⟩ => rfl
theorem drop_lift2 (i : S10000x64.Idx) : idx_main_v14 (lift i) = i := by
  funext a; match a with | ⟨0, _⟩ => rfl | ⟨1, _⟩ => rfl
theorem drop_lift3 (i : S10000x64.Idx) : idx_main_v15 (lift i) = i := by
  funext a; match a with | ⟨0, _⟩ => rfl | ⟨1, _⟩ => rfl

/-- The four one-layer tables, in the order they are stacked. -/
abbrev layers (u : (⟨S6000x64, .f32⟩ : BufTy).Contents (Elt Ideal)) (v : (⟨S4000x64, .f32⟩ : BufTy).Contents (Elt Ideal)) (A : (⟨S10000x10000, .f32⟩ : BufTy).Contents (Elt Ideal)) : List ((s : Shape) × (s.Idx → EReal)) :=
  [⟨S1x10000x64, val_main_v12 (F := Ideal) u v⟩, ⟨S1x10000x64, val_main_v13 (F := Ideal) u v A⟩,
    ⟨S1x10000x64, val_main_v14 (F := Ideal) u v A⟩, ⟨S1x10000x64, val_main_v15 (F := Ideal) u v A⟩]

/-- Layer `n` of the stack, read at (n, r, c), is the `n`-th one-layer table at (0, r, c): the layers before it
    take up `n` positions of the leading axis. -/
theorem layer_apply (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) (k : Fin 4)
    (n : Nat) (hn : n < (layers u v A).length) (hk : k.val = n) (x : S1x10000x64.Idx → EReal)
    (hx : (layers u v A)[n] = ⟨S1x10000x64, x⟩)
    (hpre : ((((layers u v A).take n).map (·.1)).map
          fun s => if h : s.rank = S4x10000x64.rank then s.size ((0 : Fin S4x10000x64.rank).cast h.symm) else 0).sum = n) :
    val_main_v16 (F := Ideal) u v A (idx_main_v17 i k) = x (lift i) := by
  unfold val_main_v16
  exact concatenate_apply_piece (0 : Fin S4x10000x64.rank) (layers u v A) _ (idx_main_v17 i k) n hn S1x10000x64 x hx rfl n hpre (lift i)
    (fun b hb => by
      match b with
      | ⟨0, _⟩ => exact absurd rfl hb
      | ⟨1, _⟩ => rfl
      | ⟨2, _⟩ => rfl)
    (by show n + 0 = k.val; omega)

theorem layer0 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v16 (F := Ideal) u v A (idx_main_v17 i 0) = q * val_main_v0 (F := Ideal) u v i := by
  rw [layer_apply u v A i 0 0 (show 0 < 4 by decide) rfl _ rfl rfl, val_main_v12_apply, drop_lift0, weighted0]
theorem layer1 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v16 (F := Ideal) u v A (idx_main_v17 i 1) = q * step A (val_main_v0 (F := Ideal) u v) i := by
  rw [layer_apply u v A i 1 1 (show 1 < 4 by decide) rfl _ rfl rfl, val_main_v13_apply, drop_lift1, weighted1]
theorem layer2 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v16 (F := Ideal) u v A (idx_main_v17 i 2) = q * step A (step A (val_main_v0 (F := Ideal) u v)) i := by
  rw [layer_apply u v A i 2 2 (show 2 < 4 by decide) rfl _ rfl rfl, val_main_v14_apply, drop_lift2, weighted2]
theorem layer3 (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v16 (F := Ideal) u v A (idx_main_v17 i 3) = q * step A (step A (step A (val_main_v0 (F := Ideal) u v))) i := by
  rw [layer_apply u v A i 3 3 (show 3 < 4 by decide) rfl _ rfl rfl, val_main_v15_apply, drop_lift3, weighted3]

/-! ### The sum of the stack, and its two slices -/

/-- The sum of the stack along its leading axis, from the zero word: the four weighted powers added in order. -/
theorem sum_apply (u : (⟨S6000x64, .f32⟩ : BufTy).Contents (Elt Ideal)) (v : (⟨S4000x64, .f32⟩ : BufTy).Contents (Elt Ideal)) (A : (⟨S10000x10000, .f32⟩ : BufTy).Contents (Elt Ideal)) (i : S10000x64.Idx) :
    val_main_v17 (F := Ideal) u v A i
      = 0 + (q * val_main_v0 (F := Ideal) u v i + q * step A (val_main_v0 (F := Ideal) u v) i
          + q * step A (step A (val_main_v0 (F := Ideal) u v)) i
          + q * step A (step A (step A (val_main_v0 (F := Ideal) u v))) i) := by
  rw [val_main_v17_apply, Fin.sum_univ_four, layer0, layer1, layer2, layer3, val_main_cst_3_apply]
  show Ideal.ofBits .f32 0x00000000#32 + _ = _
  rw [Ideal.ofBits_zero_f32]

/-- On real tables the sum of the stack is the third Horner layer. -/
theorem sum_eq_r3 (u : (⟨S6000x64, .f32⟩ : BufTy).Contents (Elt Ideal)) (v : (⟨S4000x64, .f32⟩ : BufTy).Contents (Elt Ideal)) (A : (⟨S10000x10000, .f32⟩ : BufTy).Contents (Elt Ideal))
    (hX : ∀ i, IsR (val_main_v0 (F := Ideal) u v i)) (hA : ∀ i, IsR (A i)) (i : S10000x64.Idx) :
    val_main_v17 (F := Ideal) u v A i = r3 A (val_main_v0 (F := Ideal) u v) i := by
  rw [sum_apply]
  exact (Cert.HornerLaw.r3_eq_sum (A := A) (X := val_main_v0 (F := Ideal) u v) hA hX i).symm

/-- The first result: rows 0 … 5999 of the third Horner layer. -/
theorem users_eq (u : (⟨S6000x64, .f32⟩ : BufTy).Contents (Elt Ideal)) (v : (⟨S4000x64, .f32⟩ : BufTy).Contents (Elt Ideal)) (A : (⟨S10000x10000, .f32⟩ : BufTy).Contents (Elt Ideal))
    (hX : ∀ i, IsR (val_main_v0 (F := Ideal) u v i)) (hA : ∀ i, IsR (A i)) :
    val_main_v18 (F := Ideal) u v A = fun i => r3 A (val_main_v0 (F := Ideal) u v)
      (ix2 (⟨(i 0).val, by have := idx2_lt0 i; omega⟩ : Fin 10000) (i 1)) := by
  funext i
  rw [val_main_v18_apply, sum_eq_r3 u v A hX hA]
  exact congrArg _ (funext fun a => by match a with | ⟨0, _⟩ => rfl | ⟨1, _⟩ => rfl)

/-- The second result: rows 6000 … 9999 of the third Horner layer. -/
theorem items_eq (u : (⟨S6000x64, .f32⟩ : BufTy).Contents (Elt Ideal)) (v : (⟨S4000x64, .f32⟩ : BufTy).Contents (Elt Ideal)) (A : (⟨S10000x10000, .f32⟩ : BufTy).Contents (Elt Ideal))
    (hX : ∀ i, IsR (val_main_v0 (F := Ideal) u v i)) (hA : ∀ i, IsR (A i)) :
    val_main_v19 (F := Ideal) u v A = fun i => r3 A (val_main_v0 (F := Ideal) u v)
      (ix2 (⟨(i 0).val + 6000, by have := idx2_lt0 i; omega⟩ : Fin 10000) (i 1)) := by
  funext i
  rw [val_main_v19_apply, sum_eq_r3 u v A hX hA]
  exact congrArg _ (funext fun a => by
    match a with
    | ⟨0, _⟩ => exact Fin.ext (Nat.add_comm _ _)
    | ⟨1, _⟩ => rfl)

end Cert.RefValue

end
-- ==== Proof.LibFiniteEntry.lean ====
/-
  GENERAL LEMMAS. From "the absolute value is below +∞" to "is a real", one entry at a time.

  A finiteness precondition compares, entry by entry, the absolute value of a float array with the splat of the
  word of +∞ and asks every answer to be 1. At the exact values the absolute value is `max x (-x)`, the word
  `0x7F800000` is `⊤`, and an ordered "less than" answers 1 only when it holds; an extended real with
  `max x (-x) < ⊤` is neither infinity, so it is a real. Generic in the array's shape.
-/
import proofs.«137725_g6708738916894_cont_9to1_m_1122_6_alg».proof.Proof.LibReals
import Idealize.ShloMosaic.Lib.ValueIdx
import Idealize.ShloMosaic.Lib.Pipeline.Value
import Idealize.ShloMosaic.PureOps.Ideal.Laws

noncomputable section

namespace Cert.LibFiniteEntry

open Idealize.ShloMosaic Cert.LibReals

/-- GENERAL LEMMA. The f32 word of +∞ is `⊤`. -/
theorem inf_word : Ideal.ofBits .f32 0x7F800000#32 = ⊤ := by simp [Ideal.ofBits, Ideal.ieee]

/-- GENERAL LEMMA. An extended real whose absolute value is below +∞ is a real. -/
theorem isR_of_abs_lt_top {x : EReal} (h : max x (-x) < ⊤) : IsR x := by
  induction x using EReal.rec with
  | bot => simp at h
  | top => simp at h
  | coe r => exact ⟨r, rfl⟩

/-- GENERAL LEMMA. An ordered "less than" that answers 1 holds. -/
theorem lt_of_cmp_olt {a b : EReal} (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

/-- GENERAL LEMMA. One entry of an array of any shape `s`: when the comparison of its absolute value (the host's
    `abs`) with the scalar word of +∞ broadcast to `s` answers 1 there, the entry is a real. -/
theorem entry_isR {s : Shape} (x : FVec Ideal s .f32)
    (hb : (⟨0, ![]⟩ : Shape).BroadcastsInDim s (![] : Fin 0 → Fin s.rank)) (i : s.Idx)
    (h : cmpf .olt (Host.absf x)
      (broadcastInDim s ![] hb (constant (F := Ideal) (⟨0, ![]⟩ : Shape) .f32 0x7F800000#32)) i = 1#1) :
    IsR (x i) := by
  have hb' : broadcastInDim s ![] hb (constant (F := Ideal) (⟨0, ![]⟩ : Shape) .f32 0x7F800000#32) i = (⊤ : EReal) :=
    (broadcastInDim_apply _ hb _ i (fun a => a.elim0) (fun a => a.elim0)).trans inf_word
  have h' : Ideal.cmp .olt (max (x i) (-(x i)))
      (broadcastInDim s ![] hb (constant (F := Ideal) (⟨0, ![]⟩ : Shape) .f32 0x7F800000#32) i) = 1#1 := h
  rw [hb'] at h'
  exact isR_of_abs_lt_top (lt_of_cmp_olt h')

end Cert.LibFiniteEntry

end
-- ==== Proof.Finite.lean ====
/-
  Finite inputs hold real numbers.

  The precondition compares, entry by entry, the absolute value of each of the three input arrays with the word of +∞,
  takes the conjunction over all entries of each array, and the conjunction of the three answers. When the final answer
  is 1 each of the three is 1, so every entrywise comparison answered 1, and an extended real whose absolute value is
  below +∞ is a real number.
-/
import proofs.«137725_g6708738916894_cont_9to1_m_1122_6_alg».proof.Pre_finite_inputs
import proofs.«137725_g6708738916894_cont_9to1_m_1122_6_alg».proof.Proof.LibReals
import proofs.«137725_g6708738916894_cont_9to1_m_1122_6_alg».proof.Proof.LibFiniteEntry
import Idealize.ShloMosaic.Lib.ReduceAll
import Idealize.ShloMosaic.Lib.ValueIdx

noncomputable section

namespace Cert.Finite

open Idealize.ShloMosaic Cert.LibReals

/-- The scalar shape has one index. -/
instance : Subsingleton Cert.Pre_finite_inputs.S_.Idx := ⟨fun a b => funext fun d => d.elim0⟩

/-- When the finiteness precondition answers 1, every entry of the three inputs is a real number. -/
theorem entries_real [Cert.Pre_finite_inputs.Facts] (u : (⟨Cert.Pre_finite_inputs.S6000x64, .f32⟩ : BufTy).Contents (Elt Ideal)) (v : (⟨Cert.Pre_finite_inputs.S4000x64, .f32⟩ : BufTy).Contents (Elt Ideal)) (A : (⟨Cert.Pre_finite_inputs.S10000x10000, .f32⟩ : BufTy).Contents (Elt Ideal))
    (h : Cert.Pre_finite_inputs.fn (F := Ideal) u v A = fun _ => 1#1) :
    (∀ i, IsR (u i)) ∧ (∀ i, IsR (v i)) ∧ (∀ i, IsR (A i)) := by
  have h0 := congrFun h ValueIdx.ix0
  dsimp only [Cert.Pre_finite_inputs.fn] at h0
  obtain ⟨huv, hA⟩ := IntOp.andi_eq_one.1 h0
  obtain ⟨hu, hv⟩ := IntOp.andi_eq_one.1 huv
  refine ⟨fun i => ?_, fun i => ?_, fun i => ?_⟩
  · exact Cert.LibFiniteEntry.entry_isR u Cert.Pre_finite_inputs.Facts.bcast_S_S6000x64 i (Host.reduce_andi_all _ _ _ _ _ hu i)
  · exact Cert.LibFiniteEntry.entry_isR v Cert.Pre_finite_inputs.Facts.bcast_S_S4000x64 i (Host.reduce_andi_all _ _ _ _ _ hv i)
  · exact Cert.LibFiniteEntry.entry_isR A Cert.Pre_finite_inputs.Facts.bcast_S_S10000x10000 i (Host.reduce_andi_all _ _ _ _ _ hA i)

end Cert.Finite

end
-- ==== Proof.StackReal.lean ====
/-
  The stacked embedding table of real tables is a real table.

  The table X is the user rows above the item rows: the entry at row r is the user table's entry at row r when
  r < 6000 and the item table's entry at row r − 6000 otherwise. Either way it is an entry of one of the two operands.
-/
import proofs.«137725_g6708738916894_cont_9to1_m_1122_6_alg».proof.Proof.Gen.ReferenceIdeal.Read
import proofs.«137725_g6708738916894_cont_9to1_m_1122_6_alg».proof.Proof.LibReals
import Idealize.ShloMosaic.Lib.Pipeline.Value
import Idealize.ShloMosaic.Lib.ValueIdx

noncomputable section

namespace Cert.Finite

open Cert.ReferenceIdeal Cert.ReferenceIdeal.Gen Cert.ReferenceIdeal.Read Idealize.ShloMosaic Idealize.ShloMosaic.ValueIdx
open Cert.LibReals

/-- An entry of X in the first 6000 rows is the user table's entry at the same place. -/
theorem stack_upper (u : (⟨S6000x64, .f32⟩ : BufTy).Contents (Elt Ideal)) (v : (⟨S4000x64, .f32⟩ : BufTy).Contents (Elt Ideal)) (j : S10000x64.Idx) (hj : (j 0).val < 6000) :
    val_main_v0 (F := Ideal) u v j = u (ix2 (⟨(j 0).val, hj⟩ : Fin 6000) (j 1)) :=
  concatenate_pair_apply_left (0 : Fin S10000x64.rank) u v concatenates_S6000x64_S4000x64_S10000x64_d0 j rfl
    (ix2 (⟨(j 0).val, hj⟩ : Fin 6000) (j 1)) (fun b => by match b with | ⟨0, _⟩ => rfl | ⟨1, _⟩ => rfl)

/-- An entry of X in the last 4000 rows is the item table's entry 6000 rows higher. -/
theorem stack_lower (u : (⟨S6000x64, .f32⟩ : BufTy).Contents (Elt Ideal)) (v : (⟨S4000x64, .f32⟩ : BufTy).Contents (Elt Ideal)) (j : S10000x64.Idx) (hj : 6000 ≤ (j 0).val) :
    val_main_v0 (F := Ideal) u v j
      = v (ix2 (⟨(j 0).val - 6000, by have := idx2_lt0 j; omega⟩ : Fin 4000) (j 1)) :=
  concatenate_pair_apply_right (0 : Fin S10000x64.rank) u v concatenates_S6000x64_S4000x64_S10000x64_d0 j rfl rfl
    (ix2 (⟨(j 0).val - 6000, by have := idx2_lt0 j; omega⟩ : Fin 4000) (j 1))
    (fun b hb => by
      match b with
      | ⟨0, _⟩ => exact absurd rfl hb
      | ⟨1, _⟩ => rfl)
    (by show (j 0).val - 6000 + 6000 = (j 0).val; omega)

/-- When the user table and the item table hold real numbers, so does X. -/
theorem stack_real (u : (⟨S6000x64, .f32⟩ : BufTy).Contents (Elt Ideal)) (v : (⟨S4000x64, .f32⟩ : BufTy).Contents (Elt Ideal)) (hu : ∀ i, IsR (u i)) (hv : ∀ i, IsR (v i)) :
    ∀ i, IsR (val_main_v0 (F := Ideal) u v i) := by
  intro j
  by_cases hj : (j 0).val < 6000
  · rw [stack_upper u v j hj]; exact hu _
  · rw [stack_lower u v j (Nat.le_of_not_lt hj)]; exact hv _

end Cert.Finite

end
-- ==== Proof.lean ====
/-
  The layered propagation kernel against its reference: the claim's five parts.

  Kernel: with A the 10000 × 10000 propagation matrix, X the user table stacked on the item table and q one quarter,
  three passes over the row blocks of A build the Horner layers r1 = q (A X) + q X, r2 = A r1 + q X and
  r3 = A r2 + q X, the first two kept in a scratch table between grid points, the third written to the user output
  (rows below 6000) and the item output (the rest). Reference: 0 + q X + q A X + q A (A X) + q A (A (A X)), sliced the
  same way. Over the reals the two agree by distributivity of the matrix product over the sum; on the extended reals that
  law needs every entry finite, which is the precondition. The frames: each program runs to the end and leaves its
  arguments unchanged; the word-level kernel's frame forgets what the outputs hold, the idealized kernel's is its run with
  values, the reference's is its generated run. Nothing was rewritten by the idealization, so `preserves` is trivial.
-/
import proofs.«137725_g6708738916894_cont_9to1_m_1122_6_alg».proof.Defs
import proofs.«137725_g6708738916894_cont_9to1_m_1122_6_alg».proof.Proof.Gen.Kernel
import proofs.«137725_g6708738916894_cont_9to1_m_1122_6_alg».proof.Proof.Gen.KernelIdeal
import proofs.«137725_g6708738916894_cont_9to1_m_1122_6_alg».proof.Proof.Gen.ReferenceIdeal
import proofs.«137725_g6708738916894_cont_9to1_m_1122_6_alg».proof.Proof.Gen.Pre_finite_inputs
import proofs.«137725_g6708738916894_cont_9to1_m_1122_6_alg».proof.Proof.Gen.ReferenceIdeal.Run
import proofs.«137725_g6708738916894_cont_9to1_m_1122_6_alg».proof.Proof.Gen.ReferenceIdeal.Read
import proofs.«137725_g6708738916894_cont_9to1_m_1122_6_alg».proof.Proof.KernelFrame
import proofs.«137725_g6708738916894_cont_9to1_m_1122_6_alg».proof.Proof.IdealRun
import proofs.«137725_g6708738916894_cont_9to1_m_1122_6_alg».proof.Proof.RefValue
import proofs.«137725_g6708738916894_cont_9to1_m_1122_6_alg».proof.Proof.Finite
import proofs.«137725_g6708738916894_cont_9to1_m_1122_6_alg».proof.Proof.StackReal
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Body.frame m ρ

/-- So does the idealized kernel. -/
theorem frame_ideal : Cert.frame_KernelIdeal := fun m ρ _ => Cert.KernelIdeal.Body.frame m ρ

/-- So does the reference: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- At the exact values, from finite arguments, both programs end with the two row ranges of the Horner table `r3` of
    the matrix and the stacked table: the kernel by its run, the reference by distributivity. -/
theorem algebraic : Cert.algebraic_KernelIdeal_ReferenceIdeal := by
  intro m ρ m' ρ' hpre hagree
  refine ⟨_, _, Cert.KernelIdeal.Body.run_values m ρ, ?_⟩
  refine (θ_run Cert.ReferenceIdeal.defs _ _).mono (fun _ h c => ?_) (Cert.ReferenceIdeal.Value.run (F := Ideal) m' ρ')
  obtain ⟨h18, h19, h0, h1, h2⟩ := h c
  obtain ⟨a0, a1, a2⟩ := hagree c
  obtain ⟨hu, hv, hA⟩ := Cert.Finite.entries_real _ _ _ (hpre c)
  refine ⟨?_, ?_, h0, h1, h2⟩
  · rw [h18, Cert.ReferenceIdeal.Read.val_main_v18_eq, a0, a1, a2,
      Cert.RefValue.users_eq _ _ _ (Cert.Finite.stack_real _ _ hu hv) hA,
      Cert.KernelIdeal.Body.matA_eq, Cert.KernelIdeal.Body.tabX_eq]
    rfl
  · rw [h19, Cert.ReferenceIdeal.Read.val_main_v19_eq, a0, a1, a2,
      Cert.RefValue.items_eq _ _ _ (Cert.Finite.stack_real _ _ hu hv) hA,
      Cert.KernelIdeal.Body.matA_eq, Cert.KernelIdeal.Body.tabX_eq]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
